-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S23x3 : Shape := ⟨2, ![23, 3]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel
  bcast_S_S23x3 : S_.BroadcastsInDim S23x3 (![] : Fin 0 → Fin S23x3.rank)
  reducesTo_S23x3_S_d0_1 : S23x3.ReducesTo [0, 1] S_

variable [Facts]

def fn {F : FTy → Type} [FloatOps F] (main_arg0 : FVec F S64x100000x3 .f32) (main_arg1 : FVec F S23x3 .f32) (main_arg2 : FVec F S23x3 .f32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  let main_v4 : FVec F S23x3 .f32 := Host.absf main_arg1
  let main_cst_0 : FVec F S_ .f32 := constant S_ .f32 0x7F800000#32
  let main_v5 : FVec F S23x3 .f32 := broadcastInDim S23x3 ![] bcast_S_S23x3 main_cst_0
  let main_v6 : IVec S23x3 1 := cmpf .olt main_v4 main_v5
  let main_c_1 : IVec S_ 1 := constantI S_ 1 1#1
  let main_v7 : IVec S_ 1 := (fun x v => Host.reduce IntOp.andi x v reducesTo_S23x3_S_d0_1 h_S_) main_v6 main_c_1
  let main_v8 : IVec S_ 1 := andi main_v3 main_v7
  let main_v9 : FVec F S23x3 .f32 := Host.absf main_arg2
  let main_cst_2 : FVec F S_ .f32 := constant S_ .f32 0x7F800000#32
  let main_v10 : FVec F S23x3 .f32 := broadcastInDim S23x3 ![] bcast_S_S23x3 main_cst_2
  let main_v11 : IVec S23x3 1 := cmpf .olt main_v9 main_v10
  let main_c_3 : IVec S_ 1 := constantI S_ 1 1#1
  let main_v12 : IVec S_ 1 := (fun x v => Host.reduce IntOp.andi x v reducesTo_S23x3_S_d0_1 h_S_) main_v11 main_c_3
  let main_v13 : IVec S_ 1 := andi main_v8 main_v12
  main_v13
-- ==== Kernel.lean ====
abbrev S64x100000x3 : Shape := ⟨3, ![64, 100000, 3]⟩
abbrev S23x3 : Shape := ⟨2, ![23, 3]⟩
abbrev S1x2000x3 : Shape := ⟨3, ![1, 2000, 3]⟩
abbrev S2000x3 : Shape := ⟨2, ![2000, 3]⟩
abbrev S2000x1 : Shape := ⟨2, ![2000, 1]⟩
abbrev S1x3 : Shape := ⟨2, ![1, 3]⟩

abbrev nBuf : Space → Nat
  | .hbm => 5
  | .vmem => 5
  | .smem => 0
  | _ => 0

abbrev bufTy : (tb : Table) → Fin (tcTables nBuf tb) → BufTy
  | .hbm, ⟨0, _⟩ => ⟨S64x100000x3, .f32⟩
  | .hbm, ⟨1, _⟩ => ⟨S23x3, .f32⟩
  | .hbm, ⟨2, _⟩ => ⟨S23x3, .f32⟩
  | .hbm, ⟨3, _⟩ => ⟨S23x3, .f32⟩
  | .hbm, ⟨4, _⟩ => ⟨S64x100000x3, .f32⟩
  | .local _ .vmem, ⟨0, _⟩ => ⟨S1x2000x3, .f32⟩
  | .local _ .vmem, ⟨1, _⟩ => ⟨S1x2000x3, .f32⟩
  | .local _ .vmem, ⟨2, _⟩ => ⟨S23x3, .f32⟩
  | .local _ .vmem, ⟨3, _⟩ => ⟨S1x2000x3, .f32⟩
  | .local _ .vmem, ⟨4, _⟩ => ⟨S1x2000x3, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S23x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2000x3_S1x2000x3_0_0_0 : ∀ a, (![0, 0, 0] : Fin 3 → Nat) a + S1x2000x3.size a ≤ S1x2000x3.size a
  h_S1x2000x3 : 0 < S1x2000x3.numel
  shapeCasts_S1x2000x3_S2000x3 : S1x2000x3.ShapeCasts S2000x3
  inb_S23x3_S23x3_0_0 : ∀ a, (![0, 0] : Fin 2 → Nat) a + S23x3.size a ≤ S23x3.size a
  h_S23x3 : 0 < S23x3.numel
  shapeCasts_S23x3_S23x3 : S23x3.ShapeCasts S23x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  slices_S23x3_o0_0_S1x3 : S23x3.Slices ![0, 0] S1x3
  shapeCasts_S1x3_S1x3 : S1x3.ShapeCasts S1x3
  broadcasts_S1x3_S2000x3 : S1x3.Broadcasts S2000x3
  slices_S23x3_o1_0_S1x3 : S23x3.Slices ![1, 0] S1x3
  broadcasts_S2000x1_S2000x3 : S2000x1.Broadcasts S2000x3
  slices_S23x3_o2_0_S1x3 : S23x3.Slices ![2, 0] S1x3
  slices_S23x3_o3_0_S1x3 : S23x3.Slices ![3, 0] S1x3
  slices_S23x3_o4_0_S1x3 : S23x3.Slices ![4, 0] S1x3
  slices_S23x3_o5_0_S1x3 : S23x3.Slices ![5, 0] S1x3
  slices_S23x3_o6_0_S1x3 : S23x3.Slices ![6, 0] S1x3
  slices_S23x3_o7_0_S1x3 : S23x3.Slices ![7, 0] S1x3
  slices_S23x3_o8_0_S1x3 : S23x3.Slices ![8, 0] S1x3
  slices_S23x3_o9_0_S1x3 : S23x3.Slices ![9, 0] S1x3
  slices_S23x3_o10_0_S1x3 : S23x3.Slices ![10, 0] S1x3
  slices_S23x3_o11_0_S1x3 : S23x3.Slices ![11, 0] S1x3
  slices_S23x3_o12_0_S1x3 : S23x3.Slices ![12, 0] S1x3
  slices_S23x3_o13_0_S1x3 : S23x3.Slices ![13, 0] S1x3
  slices_S23x3_o14_0_S1x3 : S23x3.Slices ![14, 0] S1x3
  slices_S23x3_o15_0_S1x3 : S23x3.Slices ![15, 0] S1x3
  slices_S23x3_o16_0_S1x3 : S23x3.Slices ![16, 0] S1x3
  slices_S23x3_o17_0_S1x3 : S23x3.Slices ![17, 0] S1x3
  slices_S23x3_o18_0_S1x3 : S23x3.Slices ![18, 0] S1x3
  slices_S23x3_o19_0_S1x3 : S23x3.Slices ![19, 0] S1x3
  slices_S23x3_o20_0_S1x3 : S23x3.Slices ![20, 0] S1x3
  slices_S23x3_o21_0_S1x3 : S23x3.Slices ![21, 0] S1x3
  slices_S23x3_o22_0_S1x3 : S23x3.Slices ![22, 0] S1x3
  shapeCasts_S2000x3_S1x2000x3 : S2000x3.ShapeCasts S1x2000x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x3.size a ≤ S64x100000x3.size a
  hwx0_0 : ∀ i : grid0.Coords, EltTy.bits .f32 = 32 ∨ (Rect.block (s := S64x100000x3) S1x2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S23x3.size a ≤ S23x3.size a
  hwx0_1 : ∀ i : grid0.Coords, EltTy.bits .f32 = 32 ∨ (Rect.block (s := S23x3) S23x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x3.size a ≤ S64x100000x3.size a
  hwx0_2 : ∀ i : grid0.Coords, EltTy.bits .f32 = 32 ∨ (Rect.block (s := S64x100000x3) S1x2000x3.size (cc0_transform_2 i) (hinb0_2 i)).WholeWords (EltTy.packing .f32)

variable [Facts₀]

abbrev win0_0 : Pipeline.Window sig grid0 :=
  Pipeline.Window.ofSpec (Memref.whole main_arg0) S1x2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S23x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100000x3 : Shape := ⟨3, ![64, 100000, 3]⟩
abbrev S23x3 : Shape := ⟨2, ![23, 3]⟩
abbrev S_ : Shape := ⟨0, ![]⟩
abbrev S64x100000 : Shape := ⟨2, ![64, 100000]⟩
abbrev S64x100000x1 : Shape := ⟨3, ![64, 100000, 1]⟩
abbrev S64x100000x16 : Shape := ⟨3, ![64, 100000, 16]⟩
abbrev S64x100000x4 : Shape := ⟨3, ![64, 100000, 4]⟩
abbrev S64x100000x20 : Shape := ⟨3, ![64, 100000, 20]⟩
abbrev S64x100000x23 : Shape := ⟨3, ![64, 100000, 23]⟩

abbrev nBuf : Space → Nat
  | .hbm => 148
  | .vmem => 0
  | .smem => 0
  | _ => 0

abbrev hbmTy0_0 (i : Nat) : BufTy := match i % 128 with
  | 0 => ⟨S64x100000x3, .f32⟩
  | 1 => ⟨S23x3, .f32⟩
  | 2 => ⟨S23x3, .f32⟩
  | 3 => ⟨S_, .f32⟩
  | 4 => ⟨S64x100000, .f32⟩
  | 5 => ⟨S64x100000x1, .f32⟩
  | 6 => ⟨S64x100000, .f32⟩
  | 7 => ⟨S64x100000x1, .f32⟩
  | 8 => ⟨S64x100000, .f32⟩
  | 9 => ⟨S64x100000x1, .f32⟩
  | 10 => ⟨S64x100000, .f32⟩
  | 11 => ⟨S64x100000x1, .f32⟩
  | 12 => ⟨S64x100000, .f32⟩
  | 13 => ⟨S64x100000x1, .f32⟩
  | 14 => ⟨S64x100000, .f32⟩
  | 15 => ⟨S64x100000, .f32⟩
  | 16 => ⟨S64x100000x1, .f32⟩
  | 17 => ⟨S64x100000, .f32⟩
  | 18 => ⟨S64x100000x1, .f32⟩
  | 19 => ⟨S64x100000, .f32⟩
  | 20 => ⟨S64x100000, .f32⟩
  | 21 => ⟨S64x100000x1, .f32⟩
  | 22 => ⟨S64x100000, .f32⟩
  | 23 => ⟨S64x100000x1, .f32⟩
  | 24 => ⟨S64x100000, .f32⟩
  | 25 => ⟨S64x100000, .f32⟩
  | 26 => ⟨S64x100000x1, .f32⟩
  | 27 => ⟨S64x100000, .f32⟩
  | 28 => ⟨S64x100000x1, .f32⟩
  | 29 => ⟨S64x100000, .f32⟩
  | 30 => ⟨S64x100000, .f32⟩
  | 31 => ⟨S64x100000x1, .f32⟩
  | 32 => ⟨S64x100000, .f32⟩
  | 33 => ⟨S64x100000x1, .f32⟩
  | 34 => ⟨S64x100000, .f32⟩
  | 35 => ⟨S64x100000, .f32⟩
  | 36 => ⟨S64x100000x1, .f32⟩
  | 37 => ⟨S64x100000, .f32⟩
  | 38 => ⟨S64x100000x1, .f32⟩
  | 39 => ⟨S64x100000, .f32⟩
  | 40 => ⟨S64x100000, .f32⟩
  | 41 => ⟨S64x100000x1, .f32⟩
  | 42 => ⟨S64x100000, .f32⟩
  | 43 => ⟨S64x100000x1, .f32⟩
  | 44 => ⟨S64x100000, .f32⟩
  | 45 => ⟨S64x100000, .f32⟩
  | 46 => ⟨S64x100000x1, .f32⟩
  | 47 => ⟨S64x100000, .f32⟩
  | 48 => ⟨S64x100000, .f32⟩
  | 49 => ⟨S64x100000x1, .f32⟩
  | 50 => ⟨S64x100000, .f32⟩
  | 51 => ⟨S64x100000x1, .f32⟩
  | 52 => ⟨S64x100000, .f32⟩
  | 53 => ⟨S64x100000, .f32⟩
  | 54 => ⟨S64x100000x1, .f32⟩
  | 55 => ⟨S64x100000, .f32⟩
  | 56 => ⟨S64x100000, .f32⟩
  | 57 => ⟨S64x100000x1, .f32⟩
  | 58 => ⟨S64x100000, .f32⟩
  | 59 => ⟨S64x100000x1, .f32⟩
  | 60 => ⟨S64x100000, .f32⟩
  | 61 => ⟨S64x100000, .f32⟩
  | 62 => ⟨S64x100000x1, .f32⟩
  | 63 => ⟨S64x100000, .f32⟩
  | 64 => ⟨S64x100000, .f32⟩
  | 65 => ⟨S64x100000x1, .f32⟩
  | 66 => ⟨S64x100000, .f32⟩
  | 67 => ⟨S64x100000x1, .f32⟩
  | 68 => ⟨S64x100000, .f32⟩
  | 69 => ⟨S64x100000, .f32⟩
  | 70 => ⟨S64x100000x1, .f32⟩
  | 71 => ⟨S64x100000, .f32⟩
  | 72 => ⟨S64x100000, .f32⟩
  | 73 => ⟨S64x100000x1, .f32⟩
  | 74 => ⟨S64x100000, .f32⟩
  | 75 => ⟨S64x100000x1, .f32⟩
  | 76 => ⟨S64x100000, .f32⟩
  | 77 => ⟨S64x100000, .f32⟩
  | 78 => ⟨S64x100000x1, .f32⟩
  | 79 => ⟨S64x100000, .f32⟩
  | 80 => ⟨S64x100000, .f32⟩
  | 81 => ⟨S64x100000x1, .f32⟩
  | 82 => ⟨S64x100000, .f32⟩
  | 83 => ⟨S64x100000x1, .f32⟩
  | 84 => ⟨S64x100000, .f32⟩
  | 85 => ⟨S64x100000, .f32⟩
  | 86 => ⟨S64x100000x1, .f32⟩
  | 87 => ⟨S64x100000, .f32⟩
  | 88 => ⟨S64x100000, .f32⟩
  | 89 => ⟨S64x100000x1, .f32⟩
  | 90 => ⟨S64x100000, .f32⟩
  | 91 => ⟨S64x100000x1, .f32⟩
  | 92 => ⟨S64x100000, .f32⟩
  | 93 => ⟨S64x100000, .f32⟩
  | 94 => ⟨S64x100000x1, .f32⟩
  | 95 => ⟨S64x100000, .f32⟩
  | 96 => ⟨S64x100000, .f32⟩
  | 97 => ⟨S64x100000x1, .f32⟩
  | 98 => ⟨S64x100000, .f32⟩
  | 99 => ⟨S64x100000x1, .f32⟩
  | 100 => ⟨S64x100000, .f32⟩
  | 101 => ⟨S64x100000, .f32⟩
  | 102 => ⟨S64x100000x1, .f32⟩
  | 103 => ⟨S64x100000, .f32⟩
  | 104 => ⟨S64x100000, .f32⟩
  | 105 => ⟨S64x100000x1, .f32⟩
  | 106 => ⟨S64x100000, .f32⟩
  | 107 => ⟨S64x100000x1, .f32⟩
  | 108 => ⟨S64x100000, .f32⟩
  | 109 => ⟨S64x100000, .f32⟩
  | 110 => ⟨S64x100000x1, .f32⟩
  | 111 => ⟨S64x100000, .f32⟩
  | 112 => ⟨S64x100000, .f32⟩
  | 113 => ⟨S64x100000x1, .f32⟩
  | 114 => ⟨S64x100000, .f32⟩
  | 115 => ⟨S64x100000x1, .f32⟩
  | 116 => ⟨S64x100000, .f32⟩
  | 117 => ⟨S64x100000, .f32⟩
  | 118 => ⟨S64x100000x1, .f32⟩
  | 119 => ⟨S64x100000, .f32⟩
  | 120 => ⟨S64x100000, .f32⟩
  | 121 => ⟨S64x100000x1, .f32⟩
  | 122 => ⟨S64x100000x1, .f32⟩
  | 123 => ⟨S64x100000x1, .f32⟩
  | 124 => ⟨S64x100000x1, .f32⟩
  | 125 => ⟨S64x100000x1, .f32⟩
  | 126 => ⟨S64x100000x1, .f32⟩
  | 127 => ⟨S64x100000x1, .f32⟩
  | _ => ⟨S64x100000x3, .f32⟩

abbrev hbmTy0_1 (i : Nat) : BufTy := match i % 128 with
  | 0 => ⟨S64x100000x1, .f32⟩
  | 1 => ⟨S64x100000x1, .f32⟩
  | 2 => ⟨S64x100000x1, .f32⟩
  | 3 => ⟨S64x100000x1, .f32⟩
  | 4 => ⟨S64x100000x1, .f32⟩
  | 5 => ⟨S64x100000x1, .f32⟩
  | 6 => ⟨S64x100000x1, .f32⟩
  | 7 => ⟨S64x100000x1, .f32⟩
  | 8 => ⟨S64x100000x1, .f32⟩
  | 9 => ⟨S64x100000x1, .f32⟩
  | 10 => ⟨S64x100000x1, .f32⟩
  | 11 => ⟨S64x100000x1, .f32⟩
  | 12 => ⟨S64x100000x1, .f32⟩
  | 13 => ⟨S64x100000x16, .f32⟩
  | 14 => ⟨S64x100000x4, .f32⟩
  | 15 => ⟨S64x100000x20, .f32⟩
  | 16 => ⟨S64x100000x3, .f32⟩
  | 17 => ⟨S64x100000x23, .f32⟩
  | 18 => ⟨S23x3, .f32⟩
  | 19 => ⟨S64x100000x3, .f32⟩
  | _ => ⟨S64x100000x3, .f32⟩

abbrev hbmTy (i : Nat) : BufTy := match i / 128 with
  | 0 => hbmTy0_0 i
  | 1 => hbmTy0_1 i
  | _ => ⟨S64x100000x3, .f32⟩

abbrev bufTy : (tb : Table) → Fin (tcTables nBuf tb) → BufTy
  | .hbm, ⟨i, _⟩ => hbmTy i
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩

abbrev nD : Nat := 1
abbrev τ : Topo := Topo.v7x

variable {F : FTy → Type} [FloatOps F]

class Facts₀ : Prop where
  bcast_S_S64x100000 : S_.BroadcastsInDim S64x100000 (![] : Fin 0 → Fin S64x100000.rank)
  slices_S64x100000x3_S64x100000x1_0_0_0 : S64x100000x3.Slices ![0, 0, 0] S64x100000x1
  shapeCasts_S64x100000x1_S64x100000 : S64x100000x1.ShapeCasts S64x100000
  slices_S64x100000x3_S64x100000x1_0_0_1 : S64x100000x3.Slices ![0, 0, 1] S64x100000x1
  slices_S64x100000x3_S64x100000x1_0_0_2 : S64x100000x3.Slices ![0, 0, 2] S64x100000x1
  bcast_S64x100000_S64x100000x1_0_1 : S64x100000.BroadcastsInDim S64x100000x1 (![0, 1] : Fin 2 → Fin S64x100000x1.rank)
  concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2 : Shape.Concatenates [S64x100000x1, S64x100000x1, S64x100000x1, S64x100000x1, S64x100000x1, S64x100000x1, S64x100000x1, S64x100000x1, S64x100000x1, S64x100000x1, S64x100000x1, S64x100000x1, S64x100000x1, S64x100000x1, S64x100000x1, S64x100000x1] S64x100000x16 2
  concatenates_S64x100000x1_S64x100000x1_S64x100000x1_S64x100000x1_S64x100000x4_d2 : Shape.Concatenates [S64x100000x1, S64x100000x1, S64x100000x1, S64x100000x1] S64x100000x4 2
  concatenates_S64x100000x16_S64x100000x4_S64x100000x20_d2 : Shape.Concatenates [S64x100000x16, S64x100000x4] S64x100000x20 2
  concatenates_S64x100000x20_S64x100000x3_S64x100000x23_d2 : Shape.Concatenates [S64x100000x20, S64x100000x3] S64x100000x23 2
  dot_S64x100000x23_S23x3_S64x100000x3_2_0_01_1_n_n_wf : DotDims.WF S64x100000x23 S23x3 S64x100000x3 [2] [0] [0, 1] [1] [] []

variable [Facts₀]

def dot_S64x100000x23_S23x3_S64x100000x3_2_0_01_1_n_n : DotDims S64x100000x23 S23x3 S64x100000x3 where
  lhsContracting := [2]
  rhsContracting := [0]
  lhsNonContracting := [0, 1]
  rhsNonContracting := [1]
  lhsBatch := []
  rhsBatch := []
  wf := dot_S64x100000x23_S23x3_S64x100000x3_2_0_01_1_n_n_wf

class Facts : Prop extends Facts₀ where

variable [Facts]
-- ==== Proof.KernelBlock.lean ====
/-
  One entry of the block a grid point writes, as the running sum of its 23 terms.

  The body works on a 2000 x 3 block x of rows and the 23 x 3 coefficient matrix c. It takes the three channel columns
  a, b, c of the block (2000 x 1 each), lays each library term's column along the three output channels and each
  coefficient row along the 2000 rows, multiplies, and adds the 22 products, one after another, onto row 0 of the
  coefficients laid along the rows. Read at (row r, channel s), a column laid along the channels is the column at r, a
  row laid along the rows is the row at s; so entry (r, s) is c(0,s) + a_r c(1,s) + b_r c(2,s) + … + sin(c_r) c(22,s),
  the running sum that the specification's sum over the 23 library entries is (`lib_fold`).
-/
import proofs.«158647_j8753143349705_2_alg».proof.Proof.Gen.KernelIdeal.Skeleton
import Idealize.ShloMosaic.Lib.Pipeline.Value
import Idealize.ShloMosaic.Lib.ValueIdx

noncomputable section

namespace Cert.KernelIdeal.Block

open Cert.KernelIdeal Cert.KernelIdeal.Gen
open Idealize.ShloMosaic Idealize.ShloMosaic.ValueIdx

variable (r : Fin 2000) (s : Fin 3)

/-! ## The layout operations of the body, read at (row, channel) -/

/-- A column laid along the three channels, read at (r, s), is the column at r. -/
theorem colb_apply (u : FVec Ideal S2000x1 .f32) :
    broadcastTo S2000x3 u broadcasts_S2000x1_S2000x3 (ix2 r s) = u (ix2 r (0 : Fin 1)) :=
  broadcastTo_apply u broadcasts_S2000x1_S2000x3 (ix2 r s) (ix2 r (0 : Fin 1)) (fun a => by
    match a with
    | ⟨0, _⟩ => show r.val = if (2000 : Nat) = 1 then 0 else r.val; rw [if_neg (by decide)]
    | ⟨1, _⟩ => show 0 = if (1 : Nat) = 1 then 0 else s.val; rw [if_pos rfl])

/-- A row laid along the 2000 rows, read at (r, s), is the row at s. -/
theorem rowb_apply (w : FVec Ideal S1x3 .f32) :
    broadcastTo S2000x3 w broadcasts_S1x3_S2000x3 (ix2 r s) = w (ix2 (0 : Fin 1) s) :=
  broadcastTo_apply w broadcasts_S1x3_S2000x3 (ix2 r s) (ix2 (0 : Fin 1) s) (fun a => by
    match a with
    | ⟨0, _⟩ => show 0 = if (1 : Nat) = 1 then 0 else r.val; rw [if_pos rfl]
    | ⟨1, _⟩ => show s.val = if (3 : Nat) = 1 then 0 else s.val; rw [if_neg (by decide)])

/-- Row k of the coefficient matrix, read at channel s. -/
theorem coefrow_apply (v3 : FVec Ideal S23x3 .f32) (k : Fin 23) (hs : S23x3.Slices ![k.val, 0] S1x3) :
    extractStridedSlice S1x3 ![k.val, 0] v3 hs (ix2 (0 : Fin 1) s) = v3 (ix2 k s) :=
  extractStridedSlice_apply ![k.val, 0] v3 hs (ix2 (0 : Fin 1) s) (ix2 k s) (fun a => by
    match a with
    | ⟨0, _⟩ => show k.val = k.val + 0; omega
    | ⟨1, _⟩ => show s.val = 0 + s.val; omega)

/-- One product of the running sum: a library term's column times a coefficient row, read at (r, s). -/
theorem term_apply (u : FVec Ideal S2000x1 .f32) (v3 : FVec Ideal S23x3 .f32) (k : Fin 23)
    (hs : S23x3.Slices ![k.val, 0] S1x3) :
    mulf (broadcastTo S2000x3 u broadcasts_S2000x1_S2000x3)
      (broadcastTo S2000x3 (extractStridedSlice S1x3 ![k.val, 0] v3 hs) broadcasts_S1x3_S2000x3) (ix2 r s)
      = u (ix2 r (0 : Fin 1)) * v3 (ix2 k s) :=
  congrArg₂ (· * ·) (colb_apply r s u) ((rowb_apply r s _).trans (coefrow_apply s v3 k hs))

/-- Channel 0 of the input block as a column, read at row r. -/
theorem chan0_apply (v0 : Vec Ideal S1x2000x3 .f32) :
    k0_pay4 v0 (ix2 r (0 : Fin 1)) = v0 (ix3 (0 : Fin 1) r (0 : Fin 3)) := by
  unfold k0_pay4 k0_pay2
  refine (extractStridedSlice_apply ![0, 0] _ slices_S2000x3_o0_0_S2000x1 (ix2 r (0 : Fin 1)) (ix2 r (0 : Fin 3)) (fun a => ?_)).trans ?_
  · match a with
    | ⟨0, _⟩ => show r.val = 0 + r.val; omega
    | ⟨1, _⟩ => show 0 = 0 + 0; rfl
  · exact shapeCast_apply v0 shapeCasts_S1x2000x3_S2000x3 (ix2 r (0 : Fin 3)) (ix3 (0 : Fin 1) r (0 : Fin 3))
      (by rw [Shape.rowMajor_val_three, Shape.rowMajor_val_two]; show (0 * 2000 + r.val) * 3 + 0 = r.val * 3 + 0; omega)

/-- Channel 1 of the input block as a column, read at row r. -/
theorem chan1_apply (v0 : Vec Ideal S1x2000x3 .f32) :
    k0_pay5 v0 (ix2 r (0 : Fin 1)) = v0 (ix3 (0 : Fin 1) r (1 : Fin 3)) := by
  unfold k0_pay5 k0_pay2
  refine (extractStridedSlice_apply ![0, 1] _ slices_S2000x3_o0_1_S2000x1 (ix2 r (0 : Fin 1)) (ix2 r (1 : Fin 3)) (fun a => ?_)).trans ?_
  · match a with
    | ⟨0, _⟩ => show r.val = 0 + r.val; omega
    | ⟨1, _⟩ => show 1 = 1 + 0; rfl
  · exact shapeCast_apply v0 shapeCasts_S1x2000x3_S2000x3 (ix2 r (1 : Fin 3)) (ix3 (0 : Fin 1) r (1 : Fin 3))
      (by rw [Shape.rowMajor_val_three, Shape.rowMajor_val_two]; show (0 * 2000 + r.val) * 3 + 1 = r.val * 3 + 1; omega)

/-- Channel 2 of the input block as a column, read at row r. -/
theorem chan2_apply (v0 : Vec Ideal S1x2000x3 .f32) :
    k0_pay6 v0 (ix2 r (0 : Fin 1)) = v0 (ix3 (0 : Fin 1) r (2 : Fin 3)) := by
  unfold k0_pay6 k0_pay2
  refine (extractStridedSlice_apply ![0, 2] _ slices_S2000x3_o0_2_S2000x1 (ix2 r (0 : Fin 1)) (ix2 r (2 : Fin 3)) (fun a => ?_)).trans ?_
  · match a with
    | ⟨0, _⟩ => show r.val = 0 + r.val; omega
    | ⟨1, _⟩ => show 2 = 2 + 0; rfl
  · exact shapeCast_apply v0 shapeCasts_S1x2000x3_S2000x3 (ix2 r (2 : Fin 3)) (ix3 (0 : Fin 1) r (2 : Fin 3))
      (by rw [Shape.rowMajor_val_three, Shape.rowMajor_val_two]; show (0 * 2000 + r.val) * 3 + 2 = r.val * 3 + 2; omega)

/-- The 2000 x 3 result laid out as the 1 x 2000 x 3 block, read at (0, r, s). -/
theorem uncast_apply (w : FVec Ideal S2000x3 .f32) :
    shapeCast S1x2000x3 w shapeCasts_S2000x3_S1x2000x3 (ix3 (0 : Fin 1) r s) = w (ix2 r s) :=
  shapeCast_apply w shapeCasts_S2000x3_S1x2000x3 (ix3 (0 : Fin 1) r s) (ix2 r s)
    (by rw [Shape.rowMajor_val_two, Shape.rowMajor_val_three]; show r.val * 3 + s.val = (0 * 2000 + r.val) * 3 + s.val; omega)

/-! ## The running sum, stretch by stretch -/

/-- Terms 0 … 7: the constant term's coefficient, then the three channels and the first four squares. -/
theorem pay7_apply (v0 : Vec Ideal S1x2000x3 .f32) (v2 : Vec Ideal S23x3 .f32) :
    k0_pay7 v0 v2 (ix2 r s) = v2 (ix2 (0 : Fin 23) s) + v0 (ix3 (0 : Fin 1) r (0 : Fin 3)) * v2 (ix2 (1 : Fin 23) s) + v0 (ix3 (0 : Fin 1) r (1 : Fin 3)) * v2 (ix2 (2 : Fin 23) s) + v0 (ix3 (0 : Fin 1) r (2 : Fin 3)) * v2 (ix2 (3 : Fin 23) s) + v0 (ix3 (0 : Fin 1) r (0 : Fin 3)) * v0 (ix3 (0 : Fin 1) r (0 : Fin 3)) * v2 (ix2 (4 : Fin 23) s) + v0 (ix3 (0 : Fin 1) r (0 : Fin 3)) * v0 (ix3 (0 : Fin 1) r (1 : Fin 3)) * v2 (ix2 (5 : Fin 23) s) + v0 (ix3 (0 : Fin 1) r (0 : Fin 3)) * v0 (ix3 (0 : Fin 1) r (2 : Fin 3)) * v2 (ix2 (6 : Fin 23) s) + v0 (ix3 (0 : Fin 1) r (1 : Fin 3)) * v0 (ix3 (0 : Fin 1) r (1 : Fin 3)) * v2 (ix2 (7 : Fin 23) s) := by
  have e3 : k0_pay3 v2 = v2 := shapeCast_self v2 shapeCasts_S23x3_S23x3
  unfold k0_pay7
  rw [e3]
  exact (congrArg₂ (· + ·) (congrArg₂ (· + ·) (congrArg₂ (· + ·) (congrArg₂ (· + ·) (congrArg₂ (· + ·) (congrArg₂ (· + ·) (congrArg₂ (· + ·) ((rowb_apply r s _).trans ((congrFun (shapeCast_self _ shapeCasts_S1x3_S1x3) _).trans (coefrow_apply s v2 0 slices_S23x3_o0_0_S1x3)))
    ((term_apply r s (k0_pay4 v0) v2 1 slices_S23x3_o1_0_S1x3).trans (congrArg (· * v2 (ix2 (1 : Fin 23) s)) (chan0_apply r v0))))
    ((term_apply r s (k0_pay5 v0) v2 2 slices_S23x3_o2_0_S1x3).trans (congrArg (· * v2 (ix2 (2 : Fin 23) s)) (chan1_apply r v0))))
    ((term_apply r s (k0_pay6 v0) v2 3 slices_S23x3_o3_0_S1x3).trans (congrArg (· * v2 (ix2 (3 : Fin 23) s)) (chan2_apply r v0))))
    ((term_apply r s (mulf (k0_pay4 v0) (k0_pay4 v0)) v2 4 slices_S23x3_o4_0_S1x3).trans (congrArg (· * v2 (ix2 (4 : Fin 23) s)) (congrArg₂ (· * ·) (chan0_apply r v0) (chan0_apply r v0)))))
    ((term_apply r s (mulf (k0_pay4 v0) (k0_pay5 v0)) v2 5 slices_S23x3_o5_0_S1x3).trans (congrArg (· * v2 (ix2 (5 : Fin 23) s)) (congrArg₂ (· * ·) (chan0_apply r v0) (chan1_apply r v0)))))
    ((term_apply r s (mulf (k0_pay4 v0) (k0_pay6 v0)) v2 6 slices_S23x3_o6_0_S1x3).trans (congrArg (· * v2 (ix2 (6 : Fin 23) s)) (congrArg₂ (· * ·) (chan0_apply r v0) (chan2_apply r v0)))))
    ((term_apply r s (mulf (k0_pay5 v0) (k0_pay5 v0)) v2 7 slices_S23x3_o7_0_S1x3).trans (congrArg (· * v2 (ix2 (7 : Fin 23) s)) (congrArg₂ (· * ·) (chan1_apply r v0) (chan1_apply r v0)))))

/-- Term 8's column, laid along the channels. -/
theorem pay8_apply (v0 : Vec Ideal S1x2000x3 .f32) :
    k0_pay8 v0 (ix2 r s) = v0 (ix3 (0 : Fin 1) r (1 : Fin 3)) * v0 (ix3 (0 : Fin 1) r (2 : Fin 3)) :=
  (colb_apply r s (mulf (k0_pay5 v0) (k0_pay6 v0))).trans (congrArg₂ (· * ·) (chan1_apply r v0) (chan2_apply r v0))

/-- Term 8's coefficient row, laid along the rows. -/
theorem pay9_apply (v2 : Vec Ideal S23x3 .f32) : k0_pay9 v2 (ix2 r s) = v2 (ix2 (8 : Fin 23) s) := by
  have e3 : k0_pay3 v2 = v2 := shapeCast_self v2 shapeCasts_S23x3_S23x3
  unfold k0_pay9
  rw [e3]
  exact (rowb_apply r s _).trans (coefrow_apply s v2 8 slices_S23x3_o8_0_S1x3)

/-- Terms 8 … 16 added onto the sum so far. -/
theorem pay10_apply (v3 : FVec Ideal S23x3 .f32) (v4 v5 v6 : FVec Ideal S2000x1 .f32) (v48 v51 v52 : FVec Ideal S2000x3 .f32) :
    k0_pay10 v3 v4 v5 v6 v48 v51 v52 (ix2 r s) = v48 (ix2 r s) + v51 (ix2 r s) * v52 (ix2 r s) + v6 (ix2 r (0 : Fin 1)) * v6 (ix2 r (0 : Fin 1)) * v3 (ix2 (9 : Fin 23) s) + v4 (ix2 r (0 : Fin 1)) * v4 (ix2 r (0 : Fin 1)) * v4 (ix2 r (0 : Fin 1)) * v3 (ix2 (10 : Fin 23) s) + v4 (ix2 r (0 : Fin 1)) * v4 (ix2 r (0 : Fin 1)) * v5 (ix2 r (0 : Fin 1)) * v3 (ix2 (11 : Fin 23) s) + v4 (ix2 r (0 : Fin 1)) * v4 (ix2 r (0 : Fin 1)) * v6 (ix2 r (0 : Fin 1)) * v3 (ix2 (12 : Fin 23) s) + v4 (ix2 r (0 : Fin 1)) * v5 (ix2 r (0 : Fin 1)) * v5 (ix2 r (0 : Fin 1)) * v3 (ix2 (13 : Fin 23) s) + v4 (ix2 r (0 : Fin 1)) * v5 (ix2 r (0 : Fin 1)) * v6 (ix2 r (0 : Fin 1)) * v3 (ix2 (14 : Fin 23) s) + v4 (ix2 r (0 : Fin 1)) * v6 (ix2 r (0 : Fin 1)) * v6 (ix2 r (0 : Fin 1)) * v3 (ix2 (15 : Fin 23) s) + v5 (ix2 r (0 : Fin 1)) * v5 (ix2 r (0 : Fin 1)) * v5 (ix2 r (0 : Fin 1)) * v3 (ix2 (16 : Fin 23) s) := by
  unfold k0_pay10
  exact (congrArg₂ (· + ·) (congrArg₂ (· + ·) (congrArg₂ (· + ·) (congrArg₂ (· + ·) (congrArg₂ (· + ·) (congrArg₂ (· + ·) (congrArg₂ (· + ·) (congrArg₂ (· + ·) (rfl : (addf v48 (mulf v51 v52)) (ix2 r s) = v48 (ix2 r s) + v51 (ix2 r s) * v52 (ix2 r s))
    (term_apply r s (mulf v6 v6) v3 9 slices_S23x3_o9_0_S1x3))
    (term_apply r s (mulf (mulf v4 v4) v4) v3 10 slices_S23x3_o10_0_S1x3))
    (term_apply r s (mulf (mulf v4 v4) v5) v3 11 slices_S23x3_o11_0_S1x3))
    (term_apply r s (mulf (mulf v4 v4) v6) v3 12 slices_S23x3_o12_0_S1x3))
    (term_apply r s (mulf (mulf v4 v5) v5) v3 13 slices_S23x3_o13_0_S1x3))
    (term_apply r s (mulf (mulf v4 v5) v6) v3 14 slices_S23x3_o14_0_S1x3))
    (term_apply r s (mulf (mulf v4 v6) v6) v3 15 slices_S23x3_o15_0_S1x3))
    (term_apply r s (mulf (mulf v5 v5) v5) v3 16 slices_S23x3_o16_0_S1x3))

/-- Term 17's coefficient row. -/
theorem pay12_apply (v3 : FVec Ideal S23x3 .f32) : k0_pay12 v3 (ix2 (0 : Fin 1) s) = v3 (ix2 (17 : Fin 23) s) :=
  coefrow_apply s v3 17 slices_S23x3_o17_0_S1x3

/-- Terms 17 … 22 added onto the sum so far, and the result laid out as the block. -/
theorem pay1_apply (v3 : FVec Ideal S23x3 .f32) (v4 v5 v6 : FVec Ideal S2000x1 .f32) (v109 : FVec Ideal S2000x3 .f32)
    (v111 : FVec Ideal S2000x1 .f32) (v112 : FVec Ideal S1x3 .f32) :
    k0_pay1 v3 v4 v5 v6 v109 v111 v112 (ix3 (0 : Fin 1) r s) = v109 (ix2 r s) + v111 (ix2 r (0 : Fin 1)) * v112 (ix2 (0 : Fin 1) s) + v5 (ix2 r (0 : Fin 1)) * v6 (ix2 r (0 : Fin 1)) * v6 (ix2 r (0 : Fin 1)) * v3 (ix2 (18 : Fin 23) s) + v6 (ix2 r (0 : Fin 1)) * v6 (ix2 r (0 : Fin 1)) * v6 (ix2 r (0 : Fin 1)) * v3 (ix2 (19 : Fin 23) s) + Ideal.sin (v4 (ix2 r (0 : Fin 1))) * v3 (ix2 (20 : Fin 23) s) + Ideal.sin (v5 (ix2 r (0 : Fin 1))) * v3 (ix2 (21 : Fin 23) s) + Ideal.sin (v6 (ix2 r (0 : Fin 1))) * v3 (ix2 (22 : Fin 23) s) := by
  unfold k0_pay1
  refine (uncast_apply r s _).trans ?_
  exact (congrArg₂ (· + ·) (congrArg₂ (· + ·) (congrArg₂ (· + ·) (congrArg₂ (· + ·) (congrArg₂ (· + ·) (congrArg₂ (· + ·) (rfl : v109 (ix2 r s) = v109 (ix2 r s)) (congrArg₂ (· * ·) (colb_apply r s v111) (rowb_apply r s v112)))
    (term_apply r s (mulf (mulf v5 v6) v6) v3 18 slices_S23x3_o18_0_S1x3))
    (term_apply r s (mulf (mulf v6 v6) v6) v3 19 slices_S23x3_o19_0_S1x3))
    (term_apply r s (sin v4) v3 20 slices_S23x3_o20_0_S1x3))
    (term_apply r s (sin v5) v3 21 slices_S23x3_o21_0_S1x3))
    (term_apply r s (sin v6) v3 22 slices_S23x3_o22_0_S1x3))

/-! ## The block entry -/

/-- Entry (0, r, s) of the block the body stores, from the input block `x0` and the coefficient matrix `x1`: the running
    sum of the 23 terms. -/
theorem body_entry (x1 : Vec Ideal S23x3 .f32) (x0 : Vec Ideal S1x2000x3 .f32) :
    k0_pay1 (k0_pay3 x1) (k0_pay4 x0) (k0_pay5 x0) (k0_pay6 x0)
      (k0_pay10 (k0_pay3 x1) (k0_pay4 x0) (k0_pay5 x0) (k0_pay6 x0) (k0_pay7 x0 x1) (k0_pay8 x0) (k0_pay9 x1))
      (k0_pay11 (k0_pay5 x0) (k0_pay6 x0)) (k0_pay12 (k0_pay3 x1)) (ix3 (0 : Fin 1) r s)
    = x1 (ix2 (0 : Fin 23) s) + x0 (ix3 (0 : Fin 1) r (0 : Fin 3)) * x1 (ix2 (1 : Fin 23) s) + x0 (ix3 (0 : Fin 1) r (1 : Fin 3)) * x1 (ix2 (2 : Fin 23) s) + x0 (ix3 (0 : Fin 1) r (2 : Fin 3)) * x1 (ix2 (3 : Fin 23) s) + x0 (ix3 (0 : Fin 1) r (0 : Fin 3)) * x0 (ix3 (0 : Fin 1) r (0 : Fin 3)) * x1 (ix2 (4 : Fin 23) s) + x0 (ix3 (0 : Fin 1) r (0 : Fin 3)) * x0 (ix3 (0 : Fin 1) r (1 : Fin 3)) * x1 (ix2 (5 : Fin 23) s) + x0 (ix3 (0 : Fin 1) r (0 : Fin 3)) * x0 (ix3 (0 : Fin 1) r (2 : Fin 3)) * x1 (ix2 (6 : Fin 23) s) + x0 (ix3 (0 : Fin 1) r (1 : Fin 3)) * x0 (ix3 (0 : Fin 1) r (1 : Fin 3)) * x1 (ix2 (7 : Fin 23) s) + x0 (ix3 (0 : Fin 1) r (1 : Fin 3)) * x0 (ix3 (0 : Fin 1) r (2 : Fin 3)) * x1 (ix2 (8 : Fin 23) s) + x0 (ix3 (0 : Fin 1) r (2 : Fin 3)) * x0 (ix3 (0 : Fin 1) r (2 : Fin 3)) * x1 (ix2 (9 : Fin 23) s) + x0 (ix3 (0 : Fin 1) r (0 : Fin 3)) * x0 (ix3 (0 : Fin 1) r (0 : Fin 3)) * x0 (ix3 (0 : Fin 1) r (0 : Fin 3)) * x1 (ix2 (10 : Fin 23) s) + x0 (ix3 (0 : Fin 1) r (0 : Fin 3)) * x0 (ix3 (0 : Fin 1) r (0 : Fin 3)) * x0 (ix3 (0 : Fin 1) r (1 : Fin 3)) * x1 (ix2 (11 : Fin 23) s) + x0 (ix3 (0 : Fin 1) r (0 : Fin 3)) * x0 (ix3 (0 : Fin 1) r (0 : Fin 3)) * x0 (ix3 (0 : Fin 1) r (2 : Fin 3)) * x1 (ix2 (12 : Fin 23) s) + x0 (ix3 (0 : Fin 1) r (0 : Fin 3)) * x0 (ix3 (0 : Fin 1) r (1 : Fin 3)) * x0 (ix3 (0 : Fin 1) r (1 : Fin 3)) * x1 (ix2 (13 : Fin 23) s) + x0 (ix3 (0 : Fin 1) r (0 : Fin 3)) * x0 (ix3 (0 : Fin 1) r (1 : Fin 3)) * x0 (ix3 (0 : Fin 1) r (2 : Fin 3)) * x1 (ix2 (14 : Fin 23) s) + x0 (ix3 (0 : Fin 1) r (0 : Fin 3)) * x0 (ix3 (0 : Fin 1) r (2 : Fin 3)) * x0 (ix3 (0 : Fin 1) r (2 : Fin 3)) * x1 (ix2 (15 : Fin 23) s) + x0 (ix3 (0 : Fin 1) r (1 : Fin 3)) * x0 (ix3 (0 : Fin 1) r (1 : Fin 3)) * x0 (ix3 (0 : Fin 1) r (1 : Fin 3)) * x1 (ix2 (16 : Fin 23) s) + x0 (ix3 (0 : Fin 1) r (1 : Fin 3)) * x0 (ix3 (0 : Fin 1) r (1 : Fin 3)) * x0 (ix3 (0 : Fin 1) r (2 : Fin 3)) * x1 (ix2 (17 : Fin 23) s) + x0 (ix3 (0 : Fin 1) r (1 : Fin 3)) * x0 (ix3 (0 : Fin 1) r (2 : Fin 3)) * x0 (ix3 (0 : Fin 1) r (2 : Fin 3)) * x1 (ix2 (18 : Fin 23) s) + x0 (ix3 (0 : Fin 1) r (2 : Fin 3)) * x0 (ix3 (0 : Fin 1) r (2 : Fin 3)) * x0 (ix3 (0 : Fin 1) r (2 : Fin 3)) * x1 (ix2 (19 : Fin 23) s) + Ideal.sin (x0 (ix3 (0 : Fin 1) r (0 : Fin 3))) * x1 (ix2 (20 : Fin 23) s) + Ideal.sin (x0 (ix3 (0 : Fin 1) r (1 : Fin 3))) * x1 (ix2 (21 : Fin 23) s) + Ideal.sin (x0 (ix3 (0 : Fin 1) r (2 : Fin 3))) * x1 (ix2 (22 : Fin 23) s) := by
  have e3 : k0_pay3 x1 = x1 := shapeCast_self x1 shapeCasts_S23x3_S23x3
  rw [pay1_apply, pay10_apply, pay7_apply, pay8_apply, pay9_apply, pay12_apply, e3]
  show _ + (k0_pay5 x0 (ix2 r (0 : Fin 1)) * k0_pay5 x0 (ix2 r (0 : Fin 1)) * k0_pay6 x0 (ix2 r (0 : Fin 1))) * _ + _ + _ + _ + _ + _ = _
  rw [chan0_apply, chan1_apply, chan2_apply]

end Cert.KernelIdeal.Block

end
-- ==== Proof.Spec.lean ====
/-
  The specification both programs are compared against.

  One sample of the input is a triple (a, b, c) of extended reals — the three channels of one row of one batch. Its
  library of candidate terms has 23 entries: the monomials of degree 0, 1, 2, 3 in (a, b, c), in lexicographic order of
  their index multisets ( 1 ; a, b, c ; aa, ab, ac, bb, bc, cc ; aaa, aab, aac, abb, abc, acc, bbb, bbc, bcc, ccc ), each a
  product taken from the left, then sin a, sin b, sin c. The output at (batch, row, channel s) is the library contracted
  against column s of a 23 x 3 coefficient matrix: the sum over k of library k times coefficient (k, s).

  Two laws are used, both valid on all extended reals (no finiteness is needed): a finite sum may be taken in any
  grouping, here from the left, and 1 * y = y.
-/
import Idealize.ShloMosaic.PureOps.Ideal
import Idealize.ShloMosaic.Lib.ValueIdx
import Idealize.ShloMosaic.Lib.IdealHost

noncomputable section

open scoped BigOperators

namespace Cert.Sindy

open Idealize.ShloMosaic Idealize.ShloMosaic.ValueIdx

/-- The 23 candidate terms at one sample (a, b, c). -/
def lib (a b c : EReal) : Fin 23 → EReal :=
  ![1, a, b, c, a * a, a * b, a * c, b * b, b * c, c * c,
    a * a * a, a * a * b, a * a * c, a * b * b, a * b * c, a * c * c, b * b * b, b * b * c, b * c * c, c * c * c,
    Ideal.sin a, Ideal.sin b, Ideal.sin c]

/-- A sum over 23 indices, written out from the left. -/
theorem sum_fin23 {M : Type*} [AddCommMonoid M] (f : Fin 23 → M) :
    ∑ k, f k = f 0 + f 1 + f 2 + f 3 + f 4 + f 5 + f 6 + f 7 + f 8 + f 9 + f 10 + f 11 + f 12 + f 13 + f 14 + f 15
      + f 16 + f 17 + f 18 + f 19 + f 20 + f 21 + f 22 := by
  simp only [Fin.sum_univ_castSucc, Fin.sum_univ_zero, zero_add]
  rfl

/-- The contraction of the library against a coefficient column, written as the running sum that starts at the
    constant term's coefficient and adds one product per further term. -/
theorem lib_fold (a b c : EReal) (g : Fin 23 → EReal) :
    g 0 + a * g 1 + b * g 2 + c * g 3 + a * a * g 4 + a * b * g 5 + a * c * g 6 + b * b * g 7 + b * c * g 8 + c * c * g 9
      + a * a * a * g 10 + a * a * b * g 11 + a * a * c * g 12 + a * b * b * g 13 + a * b * c * g 14 + a * c * c * g 15
      + b * b * b * g 16 + b * b * c * g 17 + b * c * c * g 18 + c * c * c * g 19
      + Ideal.sin a * g 20 + Ideal.sin b * g 21 + Ideal.sin c * g 22
    = ∑ k, lib a b c k * g k := by
  rw [sum_fin23]
  show _ = 1 * g 0 + a * g 1 + b * g 2 + c * g 3 + a * a * g 4 + a * b * g 5 + a * c * g 6 + b * b * g 7 + b * c * g 8
      + c * c * g 9 + a * a * a * g 10 + a * a * b * g 11 + a * a * c * g 12 + a * b * b * g 13 + a * b * c * g 14
      + a * c * c * g 15 + b * b * b * g 16 + b * b * c * g 17 + b * c * c * g 18 + c * c * c * g 19
      + Ideal.sin a * g 20 + Ideal.sin b * g 21 + Ideal.sin c * g 22
  rw [one_mul]

/-- The output at batch `b`, row `n`, channel `s`: the library of the sample `x (b, n, ·)` against column `s` of the
    coefficients. -/
def sample (x : (⟨3, ![64, 100000, 3]⟩ : Shape).Idx → EReal) (coef : (⟨2, ![23, 3]⟩ : Shape).Idx → EReal)
    (b : Fin 64) (n : Fin 100000) (s : Fin 3) : EReal :=
  ∑ k : Fin 23, lib (x (ix3 b n (0 : Fin 3))) (x (ix3 b n (1 : Fin 3))) (x (ix3 b n (2 : Fin 3))) k * coef (ix2 k s)

/-- The whole output array as one function of the input array and the coefficient matrix. -/
def out (x : (⟨3, ![64, 100000, 3]⟩ : Shape).Idx → EReal) (coef : (⟨2, ![23, 3]⟩ : Shape).Idx → EReal) :
    (⟨3, ![64, 100000, 3]⟩ : Shape).Idx → EReal :=
  fun i => sample x coef (i 0) (i 1) (i 2)

theorem out_apply (x : (⟨3, ![64, 100000, 3]⟩ : Shape).Idx → EReal) (coef : (⟨2, ![23, 3]⟩ : Shape).Idx → EReal)
    (b : Fin 64) (n : Fin 100000) (s : Fin 3) : out x coef (ix3 b n s) = sample x coef b n s := rfl

end Cert.Sindy

end
-- ==== Proof.KernelValue.lean ====
/-
  The kernel's result array is the specification's.

  The grid has 64 x 50 points; point (b, q) works on rows 2000 q … 2000 q + 1999 of batch b: it reads that
  1 x 2000 x 3 block of the input and the whole 23 x 3 coefficient matrix (mask times weights, entry by entry, formed
  before the grid runs), and writes the same block of the output. Entry (0, r, s) of the block it writes is the running
  sum that starts at coefficient (0, s) and adds, term by term, the library entries of the sample at row r times
  coefficients (1, s) … (22, s): the specification's sum for row 2000 q + r. The blocks tile the output array — row n
  of batch b lies in the block of point (b, n / 2000) — so the array ends holding the specification everywhere.
-/
import proofs.«158647_j8753143349705_2_alg».proof.Proof.Gen.KernelIdeal.Frame
import proofs.«158647_j8753143349705_2_alg».proof.Proof.KernelBlock
import proofs.«158647_j8753143349705_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Block
open Idealize.ShloMosaic.ValueIdx Cert.Sindy

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## One entry of the block a point writes -/

/-- Entry (0, r, s) of the block the body stores, from the coefficient matrix `x1` and the input block `x0`: the library
    of the sample at row r against coefficient column s. -/
theorem block_entry (x1 : Vec Ideal S23x3 .f32) (x0 : Vec Ideal S1x2000x3 .f32) (r : Fin 2000) (s : Fin 3) :
    k0_pay1 (k0_pay3 x1) (k0_pay4 x0) (k0_pay5 x0) (k0_pay6 x0)
      (k0_pay10 (k0_pay3 x1) (k0_pay4 x0) (k0_pay5 x0) (k0_pay6 x0) (k0_pay7 x0 x1) (k0_pay8 x0) (k0_pay9 x1))
      (k0_pay11 (k0_pay5 x0) (k0_pay6 x0)) (k0_pay12 (k0_pay3 x1)) (ix3 (0 : Fin 1) r s)
    = ∑ k : Fin 23, lib (x0 (ix3 (0 : Fin 1) r (0 : Fin 3))) (x0 (ix3 (0 : Fin 1) r (1 : Fin 3))) (x0 (ix3 (0 : Fin 1) r (2 : Fin 3))) k
        * x1 (ix2 k s) :=
  (body_entry r s x1 x0).trans (lib_fold _ _ _ (fun k => x1 (ix2 k s)))

/-! ## Where a point's blocks sit -/

/-- The input window's block index at a point is (the point's batch, the point's row block, 0). -/
theorem index_in (t : Fin cfg0.N) : win0_0.index t (0 : Fin 3) = (grid0.coords t 0).val
    ∧ win0_0.index t (1 : Fin 3) = (grid0.coords t 1).val ∧ win0_0.index t (2 : Fin 3) = 0 := by
  have h0 : (grid0.coords t 0).val < 64 := (grid0.coords t 0).isLt
  have h1 : (grid0.coords t 1).val < 50 := (grid0.coords t 1).isLt
  refine ⟨?_, ?_, rfl⟩
  · show (BitVec.ofNat 32 (grid0.coords t 0).val).toNat = (grid0.coords t 0).val
    rw [BitVec.toNat_ofNat]; exact Nat.mod_eq_of_lt (Nat.lt_of_lt_of_le h0 (by decide))
  · show (BitVec.ofNat 32 (grid0.coords t 1).val).toNat = (grid0.coords t 1).val
    rw [BitVec.toNat_ofNat]; exact Nat.mod_eq_of_lt (Nat.lt_of_lt_of_le h1 (by decide))

/-- The output window's block index at a point is the same. -/
theorem index_out (t : Fin cfg0.N) : win0_2.index t (0 : Fin 3) = (grid0.coords t 0).val
    ∧ win0_2.index t (1 : Fin 3) = (grid0.coords t 1).val ∧ win0_2.index t (2 : Fin 3) = 0 := by
  have h0 : (grid0.coords t 0).val < 64 := (grid0.coords t 0).isLt
  have h1 : (grid0.coords t 1).val < 50 := (grid0.coords t 1).isLt
  refine ⟨?_, ?_, rfl⟩
  · show (BitVec.ofNat 32 (grid0.coords t 0).val).toNat = (grid0.coords t 0).val
    rw [BitVec.toNat_ofNat]; exact Nat.mod_eq_of_lt (Nat.lt_of_lt_of_le h0 (by decide))
  · show (BitVec.ofNat 32 (grid0.coords t 1).val).toNat = (grid0.coords t 1).val
    rw [BitVec.toNat_ofNat]; exact Nat.mod_eq_of_lt (Nat.lt_of_lt_of_le h1 (by decide))

/-- Where entry `y` of the block a point writes sits in the output array. -/
def pos (t : Fin cfg0.N) (y : S1x2000x3.Idx) : S64x100000x3.Idx := ((cfg0.win 2).blk t).view.emb y

theorem pos_val (t : Fin cfg0.N) (y : S1x2000x3.Idx) : (pos t y 0).val = (grid0.coords t 0).val
    ∧ (pos t y 1).val = (grid0.coords t 1).val * 2000 + (y 1).val ∧ (pos t y 2).val = (y 2).val := by
  obtain ⟨e0, e1, e2⟩ := index_out t
  have hy0 : (y 0).val < 1 := (y 0).isLt
  refine ⟨?_, ?_, ?_⟩
  · show win0_2.index t (0 : Fin 3) * 1 + 1 * (y 0).val = _; rw [e0]; omega
  · show win0_2.index t (1 : Fin 3) * 2000 + 1 * (y 1).val = _; rw [e1]; omega
  · show win0_2.index t (2 : Fin 3) * 3 + 1 * (y 2).val = _; rw [e2]; omega

/-! ## What a point reads -/

/-- The input block at a point holds the rows of the input array the point works on. -/
theorem in_block (c : Dev nD) (t : Fin cfg0.N) (y : S1x2000x3.Idx) (i : S64x100000x3.Idx)
    (h0 : (i 0).val = (grid0.coords t 0).val) (h1 : (i 1).val = (grid0.coords t 1).val * 2000 + (y 1).val)
    (h2 : (i 2).val = (y 2).val) (hy : (y 0).val = 0) :
    (iblk m c 0 t : Vec Ideal S1x2000x3 .f32) y = (m ((c : Thread nD τ).loc main_arg0) : S64x100000x3.Idx → Elt Ideal .f32) i := by
  obtain ⟨e0, e1, e2⟩ := index_in t
  unfold iblk
  rw [View.read_apply]
  show V m c main_arg0 (((cfg0.win 0).blk t).view.emb y) = _
  rw [V_main_arg0]
  congr 1
  funext a
  apply Fin.ext
  match a with
  | ⟨0, _⟩ => show win0_0.index t (0 : Fin 3) * 1 + 1 * (y 0).val = (i 0).val; rw [e0, h0, hy]; omega
  | ⟨1, _⟩ => show win0_0.index t (1 : Fin 3) * 2000 + 1 * (y 1).val = (i 1).val; rw [e1, h1]; omega
  | ⟨2, _⟩ => show win0_0.index t (2 : Fin 3) * 3 + 1 * (y 2).val = (i 2).val; rw [e2, h2]; omega

/-- The coefficient block at every point is the whole coefficient matrix as the grid finds it. -/
theorem coef_block (c : Dev nD) (t : Fin cfg0.N) (z : S23x3.Idx) :
    (iblk m c 1 t : Vec Ideal S23x3 .f32) z = (V m c main_v0 : S23x3.Idx → Elt Ideal .f32) z := by
  unfold iblk
  rw [View.read_apply]
  show V m c main_v0 (((cfg0.win 1).blk t).view.emb z) = _
  congr 1
  funext a
  apply Fin.ext
  match a with
  | ⟨0, _⟩ => show win0_1.index t (0 : Fin 2) * 23 + 1 * (z 0).val = (z 0).val; rw [show win0_1.index t (0 : Fin 2) = 0 from rfl]; omega
  | ⟨1, _⟩ => show win0_1.index t (1 : Fin 2) * 3 + 1 * (z 1).val = (z 1).val; rw [show win0_1.index t (1 : Fin 2) = 0 from rfl]; omega

/-- Mask times weights, entry by entry. -/
def coefOf (w mk : S23x3.Idx → Elt Ideal .f32) : S23x3.Idx → Elt Ideal .f32 := fun j => mk j * w j

/-- The coefficient matrix the grid finds: mask times weights, entry by entry. -/
theorem coef_eq (c : Dev nD) : (V m c main_v0 : S23x3.Idx → Elt Ideal .f32)
    = coefOf (m ((c : Thread nD τ).loc main_arg1)) (m ((c : Thread nD τ).loc main_arg2)) := by
  dsimp only [Gen.V, Gen.hostOps0]
  after_results
  rfl

/-! ## What a point writes, and the array after the run -/

/-- The specification at an input array, weights and mask. -/
def specOf (x : S64x100000x3.Idx → Elt Ideal .f32) (w mk : S23x3.Idx → Elt Ideal .f32) :
    S64x100000x3.Idx → Elt Ideal .f32 :=
  out x (fun j => mk j * w j)

/-- The specification at this run's arguments. -/
def result (c : Dev nD) : S64x100000x3.Idx → Elt Ideal .f32 :=
  specOf (m ((c : Thread nD τ).loc main_arg0)) (m ((c : Thread nD τ).loc main_arg1)) (m ((c : Thread nD τ).loc main_arg2))

/-- What point `t` writes back is block `t` of the specification. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz3]
  simp only [View.ld_unit_zero (S := S1x2000x3) hz3, View.ld_unit_zero (S := S23x3) hz2]
  funext y
  obtain ⟨y0, r, s, rfl⟩ : ∃ (y0 : Fin 1) (r : Fin 2000) (s : Fin 3), y = ix3 y0 r s := ⟨y 0, y 1, y 2, eq_ix3 y⟩
  obtain rfl : y0 = 0 := Fin.ext (by have := y0.isLt; omega)
  obtain ⟨b, n, s', hp⟩ : ∃ (b : Fin 64) (n : Fin 100000) (s' : Fin 3), pos t (ix3 (0 : Fin 1) r s) = ix3 b n s' :=
    ⟨pos t _ 0, pos t _ 1, pos t _ 2, eq_ix3 _⟩
  have p0 : b.val = (grid0.coords t 0).val := by have h := (pos_val t (ix3 (0 : Fin 1) r s)).1; rw [hp] at h; exact h
  have p1 : n.val = (grid0.coords t 1).val * 2000 + r.val := by
    have h := (pos_val t (ix3 (0 : Fin 1) r s)).2.1; rw [hp] at h; exact h
  have p2 : s'.val = s.val := by have h := (pos_val t (ix3 (0 : Fin 1) r s)).2.2; rw [hp] at h; exact h
  obtain rfl : s' = s := Fin.ext p2
  show k0_pay1 (k0_pay3 (iblk m c 1 t)) (k0_pay4 (iblk m c 0 t)) (k0_pay5 (iblk m c 0 t)) (k0_pay6 (iblk m c 0 t))
      (k0_pay10 (k0_pay3 (iblk m c 1 t)) (k0_pay4 (iblk m c 0 t)) (k0_pay5 (iblk m c 0 t)) (k0_pay6 (iblk m c 0 t))
        (k0_pay7 (iblk m c 0 t) (iblk m c 1 t)) (k0_pay8 (iblk m c 0 t)) (k0_pay9 (iblk m c 1 t)))
      (k0_pay11 (k0_pay5 (iblk m c 0 t)) (k0_pay6 (iblk m c 0 t))) (k0_pay12 (k0_pay3 (iblk m c 1 t))) (ix3 (0 : Fin 1) r s')
    = result m c (pos t (ix3 (0 : Fin 1) r s'))
  rw [hp]
  refine (block_entry (iblk m c 1 t) (iblk m c 0 t) r s').trans ?_
  have hx : ∀ o : Fin 3, (iblk m c 0 t : Vec Ideal S1x2000x3 .f32) (ix3 (0 : Fin 1) r o)
      = (m ((c : Thread nD τ).loc main_arg0) : S64x100000x3.Idx → Elt Ideal .f32) (ix3 b n o) :=
    fun o => in_block m c t _ _ p0 p1 rfl rfl
  have hc : ∀ k : Fin 23, (iblk m c 1 t : Vec Ideal S23x3 .f32) (ix2 k s')
      = coefOf (m ((c : Thread nD τ).loc main_arg1)) (m ((c : Thread nD τ).loc main_arg2)) (ix2 k s') :=
    fun k => (coef_block m c t (ix2 k s')).trans (congrFun (coef_eq m c) (ix2 k s'))
  rw [hx 0, hx 1, hx 2]
  simp only [hc]
  rfl

/-- Every entry of the output array lies in the block of some point. -/
theorem covered (i : S64x100000x3.Idx) :
    ∃ t : Fin cfg0.N, (cfg0.win 2).flush t = true ∧ i ∈ ((cfg0.win 2).blk t).view.set := by
  have hi0 : (i 0).val < 64 := (i 0).isLt
  have hi1 : (i 1).val < 100000 := (i 1).isLt
  have hi2 : (i 2).val < 3 := (i 2).isLt
  have hN : cfg0.N = 3200 := N_0
  let t : Fin cfg0.N := ⟨(i 0).val * 50 + (i 1).val / 2000, by rw [hN]; omega⟩
  have c0 : (grid0.coords t 0).val = (i 0).val := by
    show ((i 0).val * 50 + (i 1).val / 2000) / grid0.stride 0 % 64 = (i 0).val
    rw [show grid0.stride 0 = 50 from by decide]; omega
  have c1 : (grid0.coords t 1).val = (i 1).val / 2000 := by
    show ((i 0).val * 50 + (i 1).val / 2000) / grid0.stride 1 % 50 = (i 1).val / 2000
    rw [show grid0.stride 1 = 1 from by decide]; omega
  obtain ⟨e0, e1, e2⟩ := index_out t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0, c0]; omega
  | ⟨1, _⟩ =>
    show win0_2.index t (1 : Fin 3) * 2000 ≤ (i 1).val ∧ (i 1).val < win0_2.index t (1 : Fin 3) * 2000 + 2000
    rw [e1, c1]; omega
  | ⟨2, _⟩ =>
    show win0_2.index t (2 : Fin 3) * 3 ≤ (i 2).val ∧ (i 2).val < win0_2.index t (2 : Fin 3) * 3 + 3
    rw [e2]; omega

/-- So the output array ends holding the specification. -/
theorem final (c : Dev nD) : (dats m 0 c).arrAt 2 cfg0.N = result m c :=
  (dats m 0 c).arrAt_eq_of_cover 2 (result m c) (fun t _ => flushed_eq m c t) covered

/-- The kernel's run: the result array at the specification, the arguments unchanged. The frame run leaves the output
    window's array at what the write-backs made it, the staged input as launched, and the two small arguments, which
    no window stages, untouched. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.RefTerm.lean ====
/-
  The reference's result as ONE composed term of its three arguments.

  The three channel columns of the input (one coordinate of the last axis sliced out, flattened to batch x row); the
  twenty monomial columns — the constant one, the channels, their products of two and of three taken from the left —
  each laid back on a unit last axis and joined along it, sixteen and four, then both groups; the sines of the input
  behind them; and that 23-entry axis contracted against mask times weights.
-/
import proofs.«158647_j8753143349705_2_alg».proof.Proof.Gen.ReferenceIdeal
import Idealize.ShloMosaic.PureOps

noncomputable section

namespace Cert.ReferenceIdeal.HandRun

open Cert.ReferenceIdeal Cert.ReferenceIdeal.Gen Idealize.ShloMosaic

variable {F : FTy → Type} [FloatOps F]

/-! ## The composed term -/

/-- Channel 0 of the input as a flat 64 x 100000 array. -/
abbrev ch0 (x : (⟨S64x100000x3, .f32⟩ : BufTy).Contents (Elt F)) : (⟨S64x100000, .f32⟩ : BufTy).Contents (Elt F) :=
  shapeCast S64x100000 (extractStridedSlice S64x100000x1 ![0, 0, 0] x slices_S64x100000x3_S64x100000x1_0_0_0) shapeCasts_S64x100000x1_S64x100000
/-- Channel 1. -/
abbrev ch1 (x : (⟨S64x100000x3, .f32⟩ : BufTy).Contents (Elt F)) : (⟨S64x100000, .f32⟩ : BufTy).Contents (Elt F) :=
  shapeCast S64x100000 (extractStridedSlice S64x100000x1 ![0, 0, 1] x slices_S64x100000x3_S64x100000x1_0_0_1) shapeCasts_S64x100000x1_S64x100000
/-- Channel 2. -/
abbrev ch2 (x : (⟨S64x100000x3, .f32⟩ : BufTy).Contents (Elt F)) : (⟨S64x100000, .f32⟩ : BufTy).Contents (Elt F) :=
  shapeCast S64x100000 (extractStridedSlice S64x100000x1 ![0, 0, 2] x slices_S64x100000x3_S64x100000x1_0_0_2) shapeCasts_S64x100000x1_S64x100000
/-- A flat array laid back on a unit last axis. -/
abbrev lay (y : (⟨S64x100000, .f32⟩ : BufTy).Contents (Elt F)) : (⟨S64x100000x1, .f32⟩ : BufTy).Contents (Elt F) :=
  broadcastInDim S64x100000x1 ![0, 1] bcast_S64x100000_S64x100000x1_0_1 y
/-- The constant one at every (batch, row). -/
abbrev ones : (⟨S64x100000, .f32⟩ : BufTy).Contents (Elt F) :=
  broadcastInDim S64x100000 ![] bcast_S_S64x100000 (constant S_ .f32 0x3F800000#32)

/-- Monomials 0 … 15 side by side. -/
def mono16 (x : (⟨S64x100000x3, .f32⟩ : BufTy).Contents (Elt F)) : (⟨S64x100000x16, .f32⟩ : BufTy).Contents (Elt F) :=
  concatenate S64x100000x16 2 [⟨S64x100000x1, lay ones⟩,
    ⟨S64x100000x1, lay (ch0 x)⟩,
    ⟨S64x100000x1, lay (ch1 x)⟩,
    ⟨S64x100000x1, lay (ch2 x)⟩,
    ⟨S64x100000x1, lay (mulf (ch0 x) (ch0 x))⟩,
    ⟨S64x100000x1, lay (mulf (ch0 x) (ch1 x))⟩,
    ⟨S64x100000x1, lay (mulf (ch0 x) (ch2 x))⟩,
    ⟨S64x100000x1, lay (mulf (ch1 x) (ch1 x))⟩,
    ⟨S64x100000x1, lay (mulf (ch1 x) (ch2 x))⟩,
    ⟨S64x100000x1, lay (mulf (ch2 x) (ch2 x))⟩,
    ⟨S64x100000x1, lay (mulf (mulf (ch0 x) (ch0 x)) (ch0 x))⟩,
    ⟨S64x100000x1, lay (mulf (mulf (ch0 x) (ch0 x)) (ch1 x))⟩,
    ⟨S64x100000x1, lay (mulf (mulf (ch0 x) (ch0 x)) (ch2 x))⟩,
    ⟨S64x100000x1, lay (mulf (mulf (ch0 x) (ch1 x)) (ch1 x))⟩,
    ⟨S64x100000x1, lay (mulf (mulf (ch0 x) (ch1 x)) (ch2 x))⟩,
    ⟨S64x100000x1, lay (mulf (mulf (ch0 x) (ch2 x)) (ch2 x))⟩]
    concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2

/-- Monomials 16 … 19 side by side. -/
def mono4 (x : (⟨S64x100000x3, .f32⟩ : BufTy).Contents (Elt F)) : (⟨S64x100000x4, .f32⟩ : BufTy).Contents (Elt F) :=
  concatenate S64x100000x4 2 [⟨S64x100000x1, lay (mulf (mulf (ch1 x) (ch1 x)) (ch1 x))⟩,
    ⟨S64x100000x1, lay (mulf (mulf (ch1 x) (ch1 x)) (ch2 x))⟩,
    ⟨S64x100000x1, lay (mulf (mulf (ch1 x) (ch2 x)) (ch2 x))⟩,
    ⟨S64x100000x1, lay (mulf (mulf (ch2 x) (ch2 x)) (ch2 x))⟩]
    concatenates_S64x100000x1_S64x100000x1_S64x100000x1_S64x100000x1_S64x100000x4_d2

/-- The library array: the twenty monomials, then the three sines. -/
def theta (x : (⟨S64x100000x3, .f32⟩ : BufTy).Contents (Elt F)) : (⟨S64x100000x23, .f32⟩ : BufTy).Contents (Elt F) :=
  concatenate S64x100000x23 2 [⟨S64x100000x20, concatenate S64x100000x20 2 [⟨S64x100000x16, mono16 x⟩, ⟨S64x100000x4, mono4 x⟩] concatenates_S64x100000x16_S64x100000x4_S64x100000x20_d2⟩,
    ⟨S64x100000x3, Host.sin x⟩] concatenates_S64x100000x20_S64x100000x3_S64x100000x23_d2

/-- The reference's result: the library array contracted against mask times weights. -/
def refOut (x : (⟨S64x100000x3, .f32⟩ : BufTy).Contents (Elt F)) (w mk : (⟨S23x3, .f32⟩ : BufTy).Contents (Elt F)) :
    (⟨S64x100000x3, .f32⟩ : BufTy).Contents (Elt F) :=
  Host.dotGeneral dot_S64x100000x23_S23x3_S64x100000x3_2_0_01_1_n_n none (theta x) (mulf mk w)

end Cert.ReferenceIdeal.HandRun

end
-- ==== Proof.LibNary16.lean ====
/-
  A host operation over a LITERAL family of sixteen operands, read at its result buffer.

  The library's general lemma leaves the operands' contents under a binder (`fun k => F (xs k)`), where a reference is
  no literal and no further result lemma applies; for four operands it has the literal-family form. This is that form for
  sixteen: the result is the operation's function of the sixteen operands' contents, each AT ITS OWN BUFFER.
-/
import Idealize.ShloMosaic.Lib.StableHlo.Run

noncomputable section

namespace Cert.LibNary16

open Idealize.ShloMosaic Idealize.ShloMosaic.StableHlo

variable {τ : Topo} {sig : RefSig} {Val : EltTy → Type}
variable {x0 x1 x2 x3 x4 x5 x6 x7 x8 x9 x10 x11 x12 x13 x14 x15 y : Ref sig .tc}

/-- Sixteen literal operands: the result with each operand's contents at its own buffer. -/
theorem nary16_result
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl

/-- The same, stated for one pass of `simp` (the result buffer un-indexed, as the library states its own). -/
theorem nary16_result'
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

end Cert.LibNary16

end
-- ==== Proof.RefRun.lean ====
/-
  The reference program's run, assembled from its stretches.

  @main's 145 operations are nine stretches one after another. The contents after a list of operations run from
  contents V is the contents after its second part run from the contents after its first; a buffer a stretch does not
  write passes through it unchanged. Followed stretch by stretch from the launch contents: the constant one and the three
  channel columns; their sixteen products; each of those twenty laid on a unit last axis; the two groups joined, then
  joined to each other, then the sines of the input joined behind; and that axis contracted against mask times weights —
  the composed term of the three arguments. Every weakly fair execution terminates there, the arguments unchanged.
-/
import proofs.«158647_j8753143349705_2_alg».proof.Proof.RunA
import proofs.«158647_j8753143349705_2_alg».proof.Proof.RunB
import proofs.«158647_j8753143349705_2_alg».proof.Proof.RunC
import proofs.«158647_j8753143349705_2_alg».proof.Proof.RunD
import proofs.«158647_j8753143349705_2_alg».proof.Proof.RunE
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other: the contents after the second, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- @main's 145 operations: the stretches in order. -/
def ops : List (HloOp τ sig (Elt F)) := opsA ++ opsB ++ opsC ++ opsD ++ opsE1 ++ opsE2 ++ opsE3 ++ opsE4 ++ opsE5

/-- @main is the sequence of its operations (the unfolding is left to the kernel's check). -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  exact List.forall_append.mpr ⟨List.forall_append.mpr ⟨List.forall_append.mpr ⟨List.forall_append.mpr ⟨List.forall_append.mpr ⟨List.forall_append.mpr ⟨List.forall_append.mpr ⟨List.forall_append.mpr ⟨opsA_sub, opsB_sub⟩, opsC_sub⟩, opsD_sub⟩, opsE1_sub⟩, opsE2_sub⟩, opsE3_sub⟩, opsE4_sub⟩, opsE5_sub⟩

theorem ops_fresh : ∀ op ∈ (ops : List (HloOp τ sig (Elt F))), op.fresh = ∅ := by
  intro op h
  unfold ops at h
  rcases List.mem_append.mp h with h | h
  · rcases List.mem_append.mp h with h | h
    · rcases List.mem_append.mp h with h | h
      · rcases List.mem_append.mp h with h | h
        · rcases List.mem_append.mp h with h | h
          · rcases List.mem_append.mp h with h | h
            · rcases List.mem_append.mp h with h | h
              · rcases List.mem_append.mp h with h | h
                · exact opsA_fresh op h
                · exact opsB_fresh op h
              · exact opsC_fresh op h
            · exact opsD_fresh op h
          · exact opsE1_fresh op h
        · exact opsE2_fresh op h
      · exact opsE3_fresh op h
    · exact opsE4_fresh op h
  · exact opsE5_fresh op h

/-- A buffer none of the stretches writes passes through the whole program unchanged. -/
theorem arg_kept (V0 : Valuation τ sig (Elt F)) {r : Ref sig .tc}
    (hA : r ∉ wrA) (hB : r ∉ wrB) (hC : r ∉ wrC) (hD : r ∉ wrD) (hE1 : r ∉ wrE1) (hE2 : r ∉ wrE2) (hE3 : r ∉ wrE3) (hE4 : r ∉ wrE4) (hE5 : r ∉ wrE5) :
    after ops V0 (Proc.devRef .tc r) = V0 (Proc.devRef .tc r) := by
  unfold ops
  simp only [after_append]
  exact (((((((((keepsE5 _ hE5).trans (keepsE4 _ hE4)).trans (keepsE3 _ hE3)).trans (keepsE2 _ hE2)).trans (keepsE1 _ hE1)).trans (keepsD _ hD)).trans (keepsC _ hC)).trans (keepsB _ hB)).trans (keepsA _ hA))

set_option maxHeartbeats 2000000 in
/-- The result buffer after the whole program: the composed term of the three arguments' contents. -/
theorem result_read (V0 : Valuation τ sig (Elt F)) :
    after ops V0 (Proc.devRef .tc main_v143)
      = refOut (V0 (Proc.devRef .tc main_arg0)) (V0 (Proc.devRef .tc main_arg1)) (V0 (Proc.devRef .tc main_arg2)) := by
  unfold ops
  simp only [after_append]
  have s1_arg0 : (after opsA V0) (Proc.devRef .tc main_arg0) = (V0 (Proc.devRef .tc main_arg0)) := keepsA V0 (r := main_arg0) (by decide)
  have s1_arg1 : (after opsA V0) (Proc.devRef .tc main_arg1) = (V0 (Proc.devRef .tc main_arg1)) := keepsA V0 (r := main_arg1) (by decide)
  have s1_arg2 : (after opsA V0) (Proc.devRef .tc main_arg2) = (V0 (Proc.devRef .tc main_arg2)) := keepsA V0 (r := main_arg2) (by decide)
  have s1_v0 : (after opsA V0) (Proc.devRef .tc main_v0) = (ones (F := F)) := (readA V0).1
  have s1_v2 : (after opsA V0) (Proc.devRef .tc main_v2) = (ch0 (V0 (Proc.devRef .tc main_arg0))) := (readA V0).2.1
  have s1_v4 : (after opsA V0) (Proc.devRef .tc main_v4) = (ch1 (V0 (Proc.devRef .tc main_arg0))) := (readA V0).2.2.1
  have s1_v6 : (after opsA V0) (Proc.devRef .tc main_v6) = (ch2 (V0 (Proc.devRef .tc main_arg0))) := (readA V0).2.2.2
  have s2_arg0 : (after opsB (after opsA V0)) (Proc.devRef .tc main_arg0) = (V0 (Proc.devRef .tc main_arg0)) := (keepsB (after opsA V0) (r := main_arg0) (by decide)).trans s1_arg0
  have s2_arg1 : (after opsB (after opsA V0)) (Proc.devRef .tc main_arg1) = (V0 (Proc.devRef .tc main_arg1)) := (keepsB (after opsA V0) (r := main_arg1) (by decide)).trans s1_arg1
  have s2_arg2 : (after opsB (after opsA V0)) (Proc.devRef .tc main_arg2) = (V0 (Proc.devRef .tc main_arg2)) := (keepsB (after opsA V0) (r := main_arg2) (by decide)).trans s1_arg2
  have s2_v0 : (after opsB (after opsA V0)) (Proc.devRef .tc main_v0) = (ones (F := F)) := (keepsB (after opsA V0) (r := main_v0) (by decide)).trans s1_v0
  have s2_v2 : (after opsB (after opsA V0)) (Proc.devRef .tc main_v2) = (ch0 (V0 (Proc.devRef .tc main_arg0))) := (keepsB (after opsA V0) (r := main_v2) (by decide)).trans s1_v2
  have s2_v4 : (after opsB (after opsA V0)) (Proc.devRef .tc main_v4) = (ch1 (V0 (Proc.devRef .tc main_arg0))) := (keepsB (after opsA V0) (r := main_v4) (by decide)).trans s1_v4
  have s2_v6 : (after opsB (after opsA V0)) (Proc.devRef .tc main_v6) = (ch2 (V0 (Proc.devRef .tc main_arg0))) := (keepsB (after opsA V0) (r := main_v6) (by decide)).trans s1_v6
  have s2_v11 : (after opsB (after opsA V0)) (Proc.devRef .tc main_v11) = (mulf (ch0 (V0 (Proc.devRef .tc main_arg0))) (ch0 (V0 (Proc.devRef .tc main_arg0)))) := by rw [(readB (after opsA V0)).1, s1_arg0]
  have s2_v16 : (after opsB (after opsA V0)) (Proc.devRef .tc main_v16) = (mulf (ch0 (V0 (Proc.devRef .tc main_arg0))) (ch1 (V0 (Proc.devRef .tc main_arg0)))) := by rw [(readB (after opsA V0)).2.1, s1_arg0]
  have s2_v21 : (after opsB (after opsA V0)) (Proc.devRef .tc main_v21) = (mulf (ch0 (V0 (Proc.devRef .tc main_arg0))) (ch2 (V0 (Proc.devRef .tc main_arg0)))) := by rw [(readB (after opsA V0)).2.2.1, s1_arg0]
  have s2_v26 : (after opsB (after opsA V0)) (Proc.devRef .tc main_v26) = (mulf (ch1 (V0 (Proc.devRef .tc main_arg0))) (ch1 (V0 (Proc.devRef .tc main_arg0)))) := by rw [(readB (after opsA V0)).2.2.2.1, s1_arg0]
  have s2_v31 : (after opsB (after opsA V0)) (Proc.devRef .tc main_v31) = (mulf (ch1 (V0 (Proc.devRef .tc main_arg0))) (ch2 (V0 (Proc.devRef .tc main_arg0)))) := by rw [(readB (after opsA V0)).2.2.2.2.1, s1_arg0]
  have s2_v36 : (after opsB (after opsA V0)) (Proc.devRef .tc main_v36) = (mulf (ch2 (V0 (Proc.devRef .tc main_arg0))) (ch2 (V0 (Proc.devRef .tc main_arg0)))) := by rw [(readB (after opsA V0)).2.2.2.2.2, s1_arg0]
  have s3_arg0 : (after opsC (after opsB (after opsA V0))) (Proc.devRef .tc main_arg0) = (V0 (Proc.devRef .tc main_arg0)) := (keepsC (after opsB (after opsA V0)) (r := main_arg0) (by decide)).trans s2_arg0
  have s3_arg1 : (after opsC (after opsB (after opsA V0))) (Proc.devRef .tc main_arg1) = (V0 (Proc.devRef .tc main_arg1)) := (keepsC (after opsB (after opsA V0)) (r := main_arg1) (by decide)).trans s2_arg1
  have s3_arg2 : (after opsC (after opsB (after opsA V0))) (Proc.devRef .tc main_arg2) = (V0 (Proc.devRef .tc main_arg2)) := (keepsC (after opsB (after opsA V0)) (r := main_arg2) (by decide)).trans s2_arg2
  have s3_v0 : (after opsC (after opsB (after opsA V0))) (Proc.devRef .tc main_v0) = (ones (F := F)) := (keepsC (after opsB (after opsA V0)) (r := main_v0) (by decide)).trans s2_v0
  have s3_v2 : (after opsC (after opsB (after opsA V0))) (Proc.devRef .tc main_v2) = (ch0 (V0 (Proc.devRef .tc main_arg0))) := (keepsC (after opsB (after opsA V0)) (r := main_v2) (by decide)).trans s2_v2
  have s3_v4 : (after opsC (after opsB (after opsA V0))) (Proc.devRef .tc main_v4) = (ch1 (V0 (Proc.devRef .tc main_arg0))) := (keepsC (after opsB (after opsA V0)) (r := main_v4) (by decide)).trans s2_v4
  have s3_v6 : (after opsC (after opsB (after opsA V0))) (Proc.devRef .tc main_v6) = (ch2 (V0 (Proc.devRef .tc main_arg0))) := (keepsC (after opsB (after opsA V0)) (r := main_v6) (by decide)).trans s2_v6
  have s3_v11 : (after opsC (after opsB (after opsA V0))) (Proc.devRef .tc main_v11) = (mulf (ch0 (V0 (Proc.devRef .tc main_arg0))) (ch0 (V0 (Proc.devRef .tc main_arg0)))) := (keepsC (after opsB (after opsA V0)) (r := main_v11) (by decide)).trans s2_v11
  have s3_v16 : (after opsC (after opsB (after opsA V0))) (Proc.devRef .tc main_v16) = (mulf (ch0 (V0 (Proc.devRef .tc main_arg0))) (ch1 (V0 (Proc.devRef .tc main_arg0)))) := (keepsC (after opsB (after opsA V0)) (r := main_v16) (by decide)).trans s2_v16
  have s3_v21 : (after opsC (after opsB (after opsA V0))) (Proc.devRef .tc main_v21) = (mulf (ch0 (V0 (Proc.devRef .tc main_arg0))) (ch2 (V0 (Proc.devRef .tc main_arg0)))) := (keepsC (after opsB (after opsA V0)) (r := main_v21) (by decide)).trans s2_v21
  have s3_v26 : (after opsC (after opsB (after opsA V0))) (Proc.devRef .tc main_v26) = (mulf (ch1 (V0 (Proc.devRef .tc main_arg0))) (ch1 (V0 (Proc.devRef .tc main_arg0)))) := (keepsC (after opsB (after opsA V0)) (r := main_v26) (by decide)).trans s2_v26
  have s3_v31 : (after opsC (after opsB (after opsA V0))) (Proc.devRef .tc main_v31) = (mulf (ch1 (V0 (Proc.devRef .tc main_arg0))) (ch2 (V0 (Proc.devRef .tc main_arg0)))) := (keepsC (after opsB (after opsA V0)) (r := main_v31) (by decide)).trans s2_v31
  have s3_v36 : (after opsC (after opsB (after opsA V0))) (Proc.devRef .tc main_v36) = (mulf (ch2 (V0 (Proc.devRef .tc main_arg0))) (ch2 (V0 (Proc.devRef .tc main_arg0)))) := (keepsC (after opsB (after opsA V0)) (r := main_v36) (by decide)).trans s2_v36
  have s3_v44 : (after opsC (after opsB (after opsA V0))) (Proc.devRef .tc main_v44) = (mulf (mulf (ch0 (V0 (Proc.devRef .tc main_arg0))) (ch0 (V0 (Proc.devRef .tc main_arg0)))) (ch0 (V0 (Proc.devRef .tc main_arg0)))) := by rw [(readC (after opsB (after opsA V0))).1, s2_arg0]
  have s3_v52 : (after opsC (after opsB (after opsA V0))) (Proc.devRef .tc main_v52) = (mulf (mulf (ch0 (V0 (Proc.devRef .tc main_arg0))) (ch0 (V0 (Proc.devRef .tc main_arg0)))) (ch1 (V0 (Proc.devRef .tc main_arg0)))) := by rw [(readC (after opsB (after opsA V0))).2.1, s2_arg0]
  have s3_v60 : (after opsC (after opsB (after opsA V0))) (Proc.devRef .tc main_v60) = (mulf (mulf (ch0 (V0 (Proc.devRef .tc main_arg0))) (ch0 (V0 (Proc.devRef .tc main_arg0)))) (ch2 (V0 (Proc.devRef .tc main_arg0)))) := by rw [(readC (after opsB (after opsA V0))).2.2.1, s2_arg0]
  have s3_v68 : (after opsC (after opsB (after opsA V0))) (Proc.devRef .tc main_v68) = (mulf (mulf (ch0 (V0 (Proc.devRef .tc main_arg0))) (ch1 (V0 (Proc.devRef .tc main_arg0)))) (ch1 (V0 (Proc.devRef .tc main_arg0)))) := by rw [(readC (after opsB (after opsA V0))).2.2.2.1, s2_arg0]
  have s3_v76 : (after opsC (after opsB (after opsA V0))) (Proc.devRef .tc main_v76) = (mulf (mulf (ch0 (V0 (Proc.devRef .tc main_arg0))) (ch1 (V0 (Proc.devRef .tc main_arg0)))) (ch2 (V0 (Proc.devRef .tc main_arg0)))) := by rw [(readC (after opsB (after opsA V0))).2.2.2.2.1, s2_arg0]
  have s3_v84 : (after opsC (after opsB (after opsA V0))) (Proc.devRef .tc main_v84) = (mulf (mulf (ch0 (V0 (Proc.devRef .tc main_arg0))) (ch2 (V0 (Proc.devRef .tc main_arg0)))) (ch2 (V0 (Proc.devRef .tc main_arg0)))) := by rw [(readC (after opsB (after opsA V0))).2.2.2.2.2, s2_arg0]
  have s4_arg0 : (after opsD (after opsC (after opsB (after opsA V0)))) (Proc.devRef .tc main_arg0) = (V0 (Proc.devRef .tc main_arg0)) := (keepsD (after opsC (after opsB (after opsA V0))) (r := main_arg0) (by decide)).trans s3_arg0
  have s4_arg1 : (after opsD (after opsC (after opsB (after opsA V0)))) (Proc.devRef .tc main_arg1) = (V0 (Proc.devRef .tc main_arg1)) := (keepsD (after opsC (after opsB (after opsA V0))) (r := main_arg1) (by decide)).trans s3_arg1
  have s4_arg2 : (after opsD (after opsC (after opsB (after opsA V0)))) (Proc.devRef .tc main_arg2) = (V0 (Proc.devRef .tc main_arg2)) := (keepsD (after opsC (after opsB (after opsA V0))) (r := main_arg2) (by decide)).trans s3_arg2
  have s4_v0 : (after opsD (after opsC (after opsB (after opsA V0)))) (Proc.devRef .tc main_v0) = (ones (F := F)) := (keepsD (after opsC (after opsB (after opsA V0))) (r := main_v0) (by decide)).trans s3_v0
  have s4_v2 : (after opsD (after opsC (after opsB (after opsA V0)))) (Proc.devRef .tc main_v2) = (ch0 (V0 (Proc.devRef .tc main_arg0))) := (keepsD (after opsC (after opsB (after opsA V0))) (r := main_v2) (by decide)).trans s3_v2
  have s4_v4 : (after opsD (after opsC (after opsB (after opsA V0)))) (Proc.devRef .tc main_v4) = (ch1 (V0 (Proc.devRef .tc main_arg0))) := (keepsD (after opsC (after opsB (after opsA V0))) (r := main_v4) (by decide)).trans s3_v4
  have s4_v6 : (after opsD (after opsC (after opsB (after opsA V0)))) (Proc.devRef .tc main_v6) = (ch2 (V0 (Proc.devRef .tc main_arg0))) := (keepsD (after opsC (after opsB (after opsA V0))) (r := main_v6) (by decide)).trans s3_v6
  have s4_v11 : (after opsD (after opsC (after opsB (after opsA V0)))) (Proc.devRef .tc main_v11) = (mulf (ch0 (V0 (Proc.devRef .tc main_arg0))) (ch0 (V0 (Proc.devRef .tc main_arg0)))) := (keepsD (after opsC (after opsB (after opsA V0))) (r := main_v11) (by decide)).trans s3_v11
  have s4_v16 : (after opsD (after opsC (after opsB (after opsA V0)))) (Proc.devRef .tc main_v16) = (mulf (ch0 (V0 (Proc.devRef .tc main_arg0))) (ch1 (V0 (Proc.devRef .tc main_arg0)))) := (keepsD (after opsC (after opsB (after opsA V0))) (r := main_v16) (by decide)).trans s3_v16
  have s4_v21 : (after opsD (after opsC (after opsB (after opsA V0)))) (Proc.devRef .tc main_v21) = (mulf (ch0 (V0 (Proc.devRef .tc main_arg0))) (ch2 (V0 (Proc.devRef .tc main_arg0)))) := (keepsD (after opsC (after opsB (after opsA V0))) (r := main_v21) (by decide)).trans s3_v21
  have s4_v26 : (after opsD (after opsC (after opsB (after opsA V0)))) (Proc.devRef .tc main_v26) = (mulf (ch1 (V0 (Proc.devRef .tc main_arg0))) (ch1 (V0 (Proc.devRef .tc main_arg0)))) := (keepsD (after opsC (after opsB (after opsA V0))) (r := main_v26) (by decide)).trans s3_v26
  have s4_v31 : (after opsD (after opsC (after opsB (after opsA V0)))) (Proc.devRef .tc main_v31) = (mulf (ch1 (V0 (Proc.devRef .tc main_arg0))) (ch2 (V0 (Proc.devRef .tc main_arg0)))) := (keepsD (after opsC (after opsB (after opsA V0))) (r := main_v31) (by decide)).trans s3_v31
  have s4_v36 : (after opsD (after opsC (after opsB (after opsA V0)))) (Proc.devRef .tc main_v36) = (mulf (ch2 (V0 (Proc.devRef .tc main_arg0))) (ch2 (V0 (Proc.devRef .tc main_arg0)))) := (keepsD (after opsC (after opsB (after opsA V0))) (r := main_v36) (by decide)).trans s3_v36
  have s4_v44 : (after opsD (after opsC (after opsB (after opsA V0)))) (Proc.devRef .tc main_v44) = (mulf (mulf (ch0 (V0 (Proc.devRef .tc main_arg0))) (ch0 (V0 (Proc.devRef .tc main_arg0)))) (ch0 (V0 (Proc.devRef .tc main_arg0)))) := (keepsD (after opsC (after opsB (after opsA V0))) (r := main_v44) (by decide)).trans s3_v44
  have s4_v52 : (after opsD (after opsC (after opsB (after opsA V0)))) (Proc.devRef .tc main_v52) = (mulf (mulf (ch0 (V0 (Proc.devRef .tc main_arg0))) (ch0 (V0 (Proc.devRef .tc main_arg0)))) (ch1 (V0 (Proc.devRef .tc main_arg0)))) := (keepsD (after opsC (after opsB (after opsA V0))) (r := main_v52) (by decide)).trans s3_v52
  have s4_v60 : (after opsD (after opsC (after opsB (after opsA V0)))) (Proc.devRef .tc main_v60) = (mulf (mulf (ch0 (V0 (Proc.devRef .tc main_arg0))) (ch0 (V0 (Proc.devRef .tc main_arg0)))) (ch2 (V0 (Proc.devRef .tc main_arg0)))) := (keepsD (after opsC (after opsB (after opsA V0))) (r := main_v60) (by decide)).trans s3_v60
  have s4_v68 : (after opsD (after opsC (after opsB (after opsA V0)))) (Proc.devRef .tc main_v68) = (mulf (mulf (ch0 (V0 (Proc.devRef .tc main_arg0))) (ch1 (V0 (Proc.devRef .tc main_arg0)))) (ch1 (V0 (Proc.devRef .tc main_arg0)))) := (keepsD (after opsC (after opsB (after opsA V0))) (r := main_v68) (by decide)).trans s3_v68
  have s4_v76 : (after opsD (after opsC (after opsB (after opsA V0)))) (Proc.devRef .tc main_v76) = (mulf (mulf (ch0 (V0 (Proc.devRef .tc main_arg0))) (ch1 (V0 (Proc.devRef .tc main_arg0)))) (ch2 (V0 (Proc.devRef .tc main_arg0)))) := (keepsD (after opsC (after opsB (after opsA V0))) (r := main_v76) (by decide)).trans s3_v76
  have s4_v84 : (after opsD (after opsC (after opsB (after opsA V0)))) (Proc.devRef .tc main_v84) = (mulf (mulf (ch0 (V0 (Proc.devRef .tc main_arg0))) (ch2 (V0 (Proc.devRef .tc main_arg0)))) (ch2 (V0 (Proc.devRef .tc main_arg0)))) := (keepsD (after opsC (after opsB (after opsA V0))) (r := main_v84) (by decide)).trans s3_v84
  have s4_v92 : (after opsD (after opsC (after opsB (after opsA V0)))) (Proc.devRef .tc main_v92) = (mulf (mulf (ch1 (V0 (Proc.devRef .tc main_arg0))) (ch1 (V0 (Proc.devRef .tc main_arg0)))) (ch1 (V0 (Proc.devRef .tc main_arg0)))) := by rw [(readD (after opsC (after opsB (after opsA V0)))).1, s3_arg0]
  have s4_v100 : (after opsD (after opsC (after opsB (after opsA V0)))) (Proc.devRef .tc main_v100) = (mulf (mulf (ch1 (V0 (Proc.devRef .tc main_arg0))) (ch1 (V0 (Proc.devRef .tc main_arg0)))) (ch2 (V0 (Proc.devRef .tc main_arg0)))) := by rw [(readD (after opsC (after opsB (after opsA V0)))).2.1, s3_arg0]
  have s4_v108 : (after opsD (after opsC (after opsB (after opsA V0)))) (Proc.devRef .tc main_v108) = (mulf (mulf (ch1 (V0 (Proc.devRef .tc main_arg0))) (ch2 (V0 (Proc.devRef .tc main_arg0)))) (ch2 (V0 (Proc.devRef .tc main_arg0)))) := by rw [(readD (after opsC (after opsB (after opsA V0)))).2.2.1, s3_arg0]
  have s4_v116 : (after opsD (after opsC (after opsB (after opsA V0)))) (Proc.devRef .tc main_v116) = (mulf (mulf (ch2 (V0 (Proc.devRef .tc main_arg0))) (ch2 (V0 (Proc.devRef .tc main_arg0)))) (ch2 (V0 (Proc.devRef .tc main_arg0)))) := by rw [(readD (after opsC (after opsB (after opsA V0)))).2.2.2, s3_arg0]
  have s5_arg0 : (after opsE1 (after opsD (after opsC (after opsB (after opsA V0))))) (Proc.devRef .tc main_arg0) = (V0 (Proc.devRef .tc main_arg0)) := (keepsE1 (after opsD (after opsC (after opsB (after opsA V0)))) (r := main_arg0) (by decide)).trans s4_arg0
  have s5_arg1 : (after opsE1 (after opsD (after opsC (after opsB (after opsA V0))))) (Proc.devRef .tc main_arg1) = (V0 (Proc.devRef .tc main_arg1)) := (keepsE1 (after opsD (after opsC (after opsB (after opsA V0)))) (r := main_arg1) (by decide)).trans s4_arg1
  have s5_arg2 : (after opsE1 (after opsD (after opsC (after opsB (after opsA V0))))) (Proc.devRef .tc main_arg2) = (V0 (Proc.devRef .tc main_arg2)) := (keepsE1 (after opsD (after opsC (after opsB (after opsA V0)))) (r := main_arg2) (by decide)).trans s4_arg2
  have s5_v117 : (after opsE1 (after opsD (after opsC (after opsB (after opsA V0))))) (Proc.devRef .tc main_v117) = (lay (ones (F := F))) := by rw [(readE1 (after opsD (after opsC (after opsB (after opsA V0))))).1, s4_v0]
  have s5_v118 : (after opsE1 (after opsD (after opsC (after opsB (after opsA V0))))) (Proc.devRef .tc main_v118) = (lay (ch0 (V0 (Proc.devRef .tc main_arg0)))) := by rw [(readE1 (after opsD (after opsC (after opsB (after opsA V0))))).2.1, s4_v2]
  have s5_v119 : (after opsE1 (after opsD (after opsC (after opsB (after opsA V0))))) (Proc.devRef .tc main_v119) = (lay (ch1 (V0 (Proc.devRef .tc main_arg0)))) := by rw [(readE1 (after opsD (after opsC (after opsB (after opsA V0))))).2.2.1, s4_v4]
  have s5_v120 : (after opsE1 (after opsD (after opsC (after opsB (after opsA V0))))) (Proc.devRef .tc main_v120) = (lay (ch2 (V0 (Proc.devRef .tc main_arg0)))) := by rw [(readE1 (after opsD (after opsC (after opsB (after opsA V0))))).2.2.2.1, s4_v6]
  have s5_v121 : (after opsE1 (after opsD (after opsC (after opsB (after opsA V0))))) (Proc.devRef .tc main_v121) = (lay (mulf (ch0 (V0 (Proc.devRef .tc main_arg0))) (ch0 (V0 (Proc.devRef .tc main_arg0))))) := by rw [(readE1 (after opsD (after opsC (after opsB (after opsA V0))))).2.2.2.2.1, s4_v11]
  have s5_v122 : (after opsE1 (after opsD (after opsC (after opsB (after opsA V0))))) (Proc.devRef .tc main_v122) = (lay (mulf (ch0 (V0 (Proc.devRef .tc main_arg0))) (ch1 (V0 (Proc.devRef .tc main_arg0))))) := by rw [(readE1 (after opsD (after opsC (after opsB (after opsA V0))))).2.2.2.2.2.1, s4_v16]
  have s5_v123 : (after opsE1 (after opsD (after opsC (after opsB (after opsA V0))))) (Proc.devRef .tc main_v123) = (lay (mulf (ch0 (V0 (Proc.devRef .tc main_arg0))) (ch2 (V0 (Proc.devRef .tc main_arg0))))) := by rw [(readE1 (after opsD (after opsC (after opsB (after opsA V0))))).2.2.2.2.2.2.1, s4_v21]
  have s5_v124 : (after opsE1 (after opsD (after opsC (after opsB (after opsA V0))))) (Proc.devRef .tc main_v124) = (lay (mulf (ch1 (V0 (Proc.devRef .tc main_arg0))) (ch1 (V0 (Proc.devRef .tc main_arg0))))) := by rw [(readE1 (after opsD (after opsC (after opsB (after opsA V0))))).2.2.2.2.2.2.2.1, s4_v26]
  have s5_v125 : (after opsE1 (after opsD (after opsC (after opsB (after opsA V0))))) (Proc.devRef .tc main_v125) = (lay (mulf (ch1 (V0 (Proc.devRef .tc main_arg0))) (ch2 (V0 (Proc.devRef .tc main_arg0))))) := by rw [(readE1 (after opsD (after opsC (after opsB (after opsA V0))))).2.2.2.2.2.2.2.2.1, s4_v31]
  have s5_v126 : (after opsE1 (after opsD (after opsC (after opsB (after opsA V0))))) (Proc.devRef .tc main_v126) = (lay (mulf (ch2 (V0 (Proc.devRef .tc main_arg0))) (ch2 (V0 (Proc.devRef .tc main_arg0))))) := by rw [(readE1 (after opsD (after opsC (after opsB (after opsA V0))))).2.2.2.2.2.2.2.2.2.1, s4_v36]
  have s5_v127 : (after opsE1 (after opsD (after opsC (after opsB (after opsA V0))))) (Proc.devRef .tc main_v127) = (lay (mulf (mulf (ch0 (V0 (Proc.devRef .tc main_arg0))) (ch0 (V0 (Proc.devRef .tc main_arg0)))) (ch0 (V0 (Proc.devRef .tc main_arg0))))) := by rw [(readE1 (after opsD (after opsC (after opsB (after opsA V0))))).2.2.2.2.2.2.2.2.2.2.1, s4_v44]
  have s5_v128 : (after opsE1 (after opsD (after opsC (after opsB (after opsA V0))))) (Proc.devRef .tc main_v128) = (lay (mulf (mulf (ch0 (V0 (Proc.devRef .tc main_arg0))) (ch0 (V0 (Proc.devRef .tc main_arg0)))) (ch1 (V0 (Proc.devRef .tc main_arg0))))) := by rw [(readE1 (after opsD (after opsC (after opsB (after opsA V0))))).2.2.2.2.2.2.2.2.2.2.2.1, s4_v52]
  have s5_v129 : (after opsE1 (after opsD (after opsC (after opsB (after opsA V0))))) (Proc.devRef .tc main_v129) = (lay (mulf (mulf (ch0 (V0 (Proc.devRef .tc main_arg0))) (ch0 (V0 (Proc.devRef .tc main_arg0)))) (ch2 (V0 (Proc.devRef .tc main_arg0))))) := by rw [(readE1 (after opsD (after opsC (after opsB (after opsA V0))))).2.2.2.2.2.2.2.2.2.2.2.2.1, s4_v60]
  have s5_v130 : (after opsE1 (after opsD (after opsC (after opsB (after opsA V0))))) (Proc.devRef .tc main_v130) = (lay (mulf (mulf (ch0 (V0 (Proc.devRef .tc main_arg0))) (ch1 (V0 (Proc.devRef .tc main_arg0)))) (ch1 (V0 (Proc.devRef .tc main_arg0))))) := by rw [(readE1 (after opsD (after opsC (after opsB (after opsA V0))))).2.2.2.2.2.2.2.2.2.2.2.2.2.1, s4_v68]
  have s5_v131 : (after opsE1 (after opsD (after opsC (after opsB (after opsA V0))))) (Proc.devRef .tc main_v131) = (lay (mulf (mulf (ch0 (V0 (Proc.devRef .tc main_arg0))) (ch1 (V0 (Proc.devRef .tc main_arg0)))) (ch2 (V0 (Proc.devRef .tc main_arg0))))) := by rw [(readE1 (after opsD (after opsC (after opsB (after opsA V0))))).2.2.2.2.2.2.2.2.2.2.2.2.2.2.1, s4_v76]
  have s5_v132 : (after opsE1 (after opsD (after opsC (after opsB (after opsA V0))))) (Proc.devRef .tc main_v132) = (lay (mulf (mulf (ch0 (V0 (Proc.devRef .tc main_arg0))) (ch2 (V0 (Proc.devRef .tc main_arg0)))) (ch2 (V0 (Proc.devRef .tc main_arg0))))) := by rw [(readE1 (after opsD (after opsC (after opsB (after opsA V0))))).2.2.2.2.2.2.2.2.2.2.2.2.2.2.2.1, s4_v84]
  have s5_v133 : (after opsE1 (after opsD (after opsC (after opsB (after opsA V0))))) (Proc.devRef .tc main_v133) = (lay (mulf (mulf (ch1 (V0 (Proc.devRef .tc main_arg0))) (ch1 (V0 (Proc.devRef .tc main_arg0)))) (ch1 (V0 (Proc.devRef .tc main_arg0))))) := by rw [(readE1 (after opsD (after opsC (after opsB (after opsA V0))))).2.2.2.2.2.2.2.2.2.2.2.2.2.2.2.2.1, s4_v92]
  have s5_v134 : (after opsE1 (after opsD (after opsC (after opsB (after opsA V0))))) (Proc.devRef .tc main_v134) = (lay (mulf (mulf (ch1 (V0 (Proc.devRef .tc main_arg0))) (ch1 (V0 (Proc.devRef .tc main_arg0)))) (ch2 (V0 (Proc.devRef .tc main_arg0))))) := by rw [(readE1 (after opsD (after opsC (after opsB (after opsA V0))))).2.2.2.2.2.2.2.2.2.2.2.2.2.2.2.2.2.1, s4_v100]
  have s5_v135 : (after opsE1 (after opsD (after opsC (after opsB (after opsA V0))))) (Proc.devRef .tc main_v135) = (lay (mulf (mulf (ch1 (V0 (Proc.devRef .tc main_arg0))) (ch2 (V0 (Proc.devRef .tc main_arg0)))) (ch2 (V0 (Proc.devRef .tc main_arg0))))) := by rw [(readE1 (after opsD (after opsC (after opsB (after opsA V0))))).2.2.2.2.2.2.2.2.2.2.2.2.2.2.2.2.2.2.1, s4_v108]
  have s5_v136 : (after opsE1 (after opsD (after opsC (after opsB (after opsA V0))))) (Proc.devRef .tc main_v136) = (lay (mulf (mulf (ch2 (V0 (Proc.devRef .tc main_arg0))) (ch2 (V0 (Proc.devRef .tc main_arg0)))) (ch2 (V0 (Proc.devRef .tc main_arg0))))) := by rw [(readE1 (after opsD (after opsC (after opsB (after opsA V0))))).2.2.2.2.2.2.2.2.2.2.2.2.2.2.2.2.2.2.2, s4_v116]
  have s6_arg0 : (after opsE2 (after opsE1 (after opsD (after opsC (after opsB (after opsA V0)))))) (Proc.devRef .tc main_arg0) = (V0 (Proc.devRef .tc main_arg0)) := (keepsE2 (after opsE1 (after opsD (after opsC (after opsB (after opsA V0))))) (r := main_arg0) (by decide)).trans s5_arg0
  have s6_arg1 : (after opsE2 (after opsE1 (after opsD (after opsC (after opsB (after opsA V0)))))) (Proc.devRef .tc main_arg1) = (V0 (Proc.devRef .tc main_arg1)) := (keepsE2 (after opsE1 (after opsD (after opsC (after opsB (after opsA V0))))) (r := main_arg1) (by decide)).trans s5_arg1
  have s6_arg2 : (after opsE2 (after opsE1 (after opsD (after opsC (after opsB (after opsA V0)))))) (Proc.devRef .tc main_arg2) = (V0 (Proc.devRef .tc main_arg2)) := (keepsE2 (after opsE1 (after opsD (after opsC (after opsB (after opsA V0))))) (r := main_arg2) (by decide)).trans s5_arg2
  have s6_v137 : (after opsE2 (after opsE1 (after opsD (after opsC (after opsB (after opsA V0)))))) (Proc.devRef .tc main_v137) = (concatenate S64x100000x16 2 [⟨S64x100000x1, (lay (ones (F := F)))⟩, ⟨S64x100000x1, (lay (ch0 (V0 (Proc.devRef .tc main_arg0))))⟩, ⟨S64x100000x1, (lay (ch1 (V0 (Proc.devRef .tc main_arg0))))⟩, ⟨S64x100000x1, (lay (ch2 (V0 (Proc.devRef .tc main_arg0))))⟩, ⟨S64x100000x1, (lay (mulf (ch0 (V0 (Proc.devRef .tc main_arg0))) (ch0 (V0 (Proc.devRef .tc main_arg0)))))⟩, ⟨S64x100000x1, (lay (mulf (ch0 (V0 (Proc.devRef .tc main_arg0))) (ch1 (V0 (Proc.devRef .tc main_arg0)))))⟩, ⟨S64x100000x1, (lay (mulf (ch0 (V0 (Proc.devRef .tc main_arg0))) (ch2 (V0 (Proc.devRef .tc main_arg0)))))⟩, ⟨S64x100000x1, (lay (mulf (ch1 (V0 (Proc.devRef .tc main_arg0))) (ch1 (V0 (Proc.devRef .tc main_arg0)))))⟩, ⟨S64x100000x1, (lay (mulf (ch1 (V0 (Proc.devRef .tc main_arg0))) (ch2 (V0 (Proc.devRef .tc main_arg0)))))⟩, ⟨S64x100000x1, (lay (mulf (ch2 (V0 (Proc.devRef .tc main_arg0))) (ch2 (V0 (Proc.devRef .tc main_arg0)))))⟩, ⟨S64x100000x1, (lay (mulf (mulf (ch0 (V0 (Proc.devRef .tc main_arg0))) (ch0 (V0 (Proc.devRef .tc main_arg0)))) (ch0 (V0 (Proc.devRef .tc main_arg0)))))⟩, ⟨S64x100000x1, (lay (mulf (mulf (ch0 (V0 (Proc.devRef .tc main_arg0))) (ch0 (V0 (Proc.devRef .tc main_arg0)))) (ch1 (V0 (Proc.devRef .tc main_arg0)))))⟩, ⟨S64x100000x1, (lay (mulf (mulf (ch0 (V0 (Proc.devRef .tc main_arg0))) (ch0 (V0 (Proc.devRef .tc main_arg0)))) (ch2 (V0 (Proc.devRef .tc main_arg0)))))⟩, ⟨S64x100000x1, (lay (mulf (mulf (ch0 (V0 (Proc.devRef .tc main_arg0))) (ch1 (V0 (Proc.devRef .tc main_arg0)))) (ch1 (V0 (Proc.devRef .tc main_arg0)))))⟩, ⟨S64x100000x1, (lay (mulf (mulf (ch0 (V0 (Proc.devRef .tc main_arg0))) (ch1 (V0 (Proc.devRef .tc main_arg0)))) (ch2 (V0 (Proc.devRef .tc main_arg0)))))⟩, ⟨S64x100000x1, (lay (mulf (mulf (ch0 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2) := by rw [(readE2 (after opsE1 (after opsD (after opsC (after opsB (after opsA V0)))))).1, s5_v117, s5_v118, s5_v119, s5_v120, s5_v121, s5_v122, s5_v123, s5_v124, s5_v125, s5_v126, s5_v127, s5_v128, s5_v129, s5_v130, s5_v131, s5_v132]
  have s6_v138 : (after opsE2 (after opsE1 (after opsD (after opsC (after opsB (after opsA V0)))))) (Proc.devRef .tc main_v138) = (concatenate S64x100000x4 2 [⟨S64x100000x1, (lay (mulf (mulf (ch1 (V0 (Proc.devRef .tc main_arg0))) (ch1 (V0 (Proc.devRef .tc main_arg0)))) (ch1 (V0 (Proc.devRef .tc main_arg0)))))⟩, ⟨S64x100000x1, (lay (mulf (mulf (ch1 (V0 (Proc.devRef .tc main_arg0))) (ch1 (V0 (Proc.devRef .tc main_arg0)))) (ch2 (V0 (Proc.devRef .tc main_arg0)))))⟩, ⟨S64x100000x1, (lay (mulf (mulf (ch1 (V0 (Proc.devRef .tc main_arg0))) (ch2 (V0 (Proc.devRef .tc main_arg0)))) (ch2 (V0 (Proc.devRef .tc main_arg0)))))⟩, ⟨S64x100000x1, (lay (mulf (mulf (ch2 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x4_d2) := by rw [(readE2 (after opsE1 (after opsD (after opsC (after opsB (after opsA V0)))))).2, s5_v133, s5_v134, s5_v135, s5_v136]
  have s7_arg1 : (after opsE3 (after opsE2 (after opsE1 (after opsD (after opsC (after opsB (after opsA V0))))))) (Proc.devRef .tc main_arg1) = (V0 (Proc.devRef .tc main_arg1)) := (keepsE3 (after opsE2 (after opsE1 (after opsD (after opsC (after opsB (after opsA V0)))))) (r := main_arg1) (by decide)).trans s6_arg1
  have s7_arg2 : (after opsE3 (after opsE2 (after opsE1 (after opsD (after opsC (after opsB (after opsA V0))))))) (Proc.devRef .tc main_arg2) = (V0 (Proc.devRef .tc main_arg2)) := (keepsE3 (after opsE2 (after opsE1 (after opsD (after opsC (after opsB (after opsA V0)))))) (r := main_arg2) (by decide)).trans s6_arg2
  have s7_v139 : (after opsE3 (after opsE2 (after opsE1 (after opsD (after opsC (after opsB (after opsA V0))))))) (Proc.devRef .tc main_v139) = (concatenate S64x100000x20 2 [⟨S64x100000x16, (concatenate S64x100000x16 2 [⟨S64x100000x1, (lay (ones (F := F)))⟩, ⟨S64x100000x1, (lay (ch0 (V0 (Proc.devRef .tc main_arg0))))⟩, ⟨S64x100000x1, (lay (ch1 (V0 (Proc.devRef .tc main_arg0))))⟩, ⟨S64x100000x1, (lay (ch2 (V0 (Proc.devRef .tc main_arg0))))⟩, ⟨S64x100000x1, (lay (mulf (ch0 (V0 (Proc.devRef .tc main_arg0))) (ch0 (V0 (Proc.devRef .tc main_arg0)))))⟩, ⟨S64x100000x1, (lay (mulf (ch0 (V0 (Proc.devRef .tc main_arg0))) (ch1 (V0 (Proc.devRef .tc main_arg0)))))⟩, ⟨S64x100000x1, (lay (mulf (ch0 (V0 (Proc.devRef .tc main_arg0))) (ch2 (V0 (Proc.devRef .tc main_arg0)))))⟩, ⟨S64x100000x1, (lay (mulf (ch1 (V0 (Proc.devRef .tc main_arg0))) (ch1 (V0 (Proc.devRef .tc main_arg0)))))⟩, ⟨S64x100000x1, (lay (mulf (ch1 (V0 (Proc.devRef .tc main_arg0))) (ch2 (V0 (Proc.devRef .tc main_arg0)))))⟩, ⟨S64x100000x1, (lay (mulf (ch2 (V0 (Proc.devRef .tc main_arg0))) (ch2 (V0 (Proc.devRef .tc main_arg0)))))⟩, ⟨S64x100000x1, (lay (mulf (mulf (ch0 (V0 (Proc.devRef .tc main_arg0))) (ch0 (V0 (Proc.devRef .tc main_arg0)))) (ch0 (V0 (Proc.devRef .tc main_arg0)))))⟩, ⟨S64x100000x1, (lay (mulf (mulf (ch0 (V0 (Proc.devRef .tc main_arg0))) (ch0 (V0 (Proc.devRef .tc main_arg0)))) (ch1 (V0 (Proc.devRef .tc main_arg0)))))⟩, ⟨S64x100000x1, (lay (mulf (mulf (ch0 (V0 (Proc.devRef .tc main_arg0))) (ch0 (V0 (Proc.devRef .tc main_arg0)))) (ch2 (V0 (Proc.devRef .tc main_arg0)))))⟩, ⟨S64x100000x1, (lay (mulf (mulf (ch0 (V0 (Proc.devRef .tc main_arg0))) (ch1 (V0 (Proc.devRef .tc main_arg0)))) (ch1 (V0 (Proc.devRef .tc main_arg0)))))⟩, ⟨S64x100000x1, (lay (mulf (mulf (ch0 (V0 (Proc.devRef .tc main_arg0))) (ch1 (V0 (Proc.devRef .tc main_arg0)))) (ch2 (V0 (Proc.devRef .tc main_arg0)))))⟩, ⟨S64x100000x1, (lay (mulf (mulf (ch0 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2)⟩, ⟨S64x100000x4, (concatenate S64x100000x4 2 [⟨S64x100000x1, (lay (mulf (mulf (ch1 (V0 (Proc.devRef .tc main_arg0))) (ch1 (V0 (Proc.devRef .tc main_arg0)))) (ch1 (V0 (Proc.devRef .tc main_arg0)))))⟩, ⟨S64x100000x1, (lay (mulf (mulf (ch1 (V0 (Proc.devRef .tc main_arg0))) (ch1 (V0 (Proc.devRef .tc main_arg0)))) (ch2 (V0 (Proc.devRef .tc main_arg0)))))⟩, ⟨S64x100000x1, (lay (mulf (mulf (ch1 (V0 (Proc.devRef .tc main_arg0))) (ch2 (V0 (Proc.devRef .tc main_arg0)))) (ch2 (V0 (Proc.devRef .tc main_arg0)))))⟩, ⟨S64x100000x1, (lay (mulf (mulf (ch2 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x4_d2)⟩] concatenates_S64x100000x16_S64x100000x4_S64x100000x20_d2) := by rw [(readE3 (after opsE2 (after opsE1 (after opsD (after opsC (after opsB (after opsA V0))))))).1, s6_v137, s6_v138]
  have s7_v140 : (after opsE3 (after opsE2 (after opsE1 (after opsD (after opsC (after opsB (after opsA V0))))))) (Proc.devRef .tc main_v140) = (Host.sin (V0 (Proc.devRef .tc main_arg0))) := by rw [(readE3 (after opsE2 (after opsE1 (after opsD (after opsC (after opsB (after opsA V0))))))).2, s6_arg0]
  have s8_arg1 : (after opsE4 (after opsE3 (after opsE2 (after opsE1 (after opsD (after opsC (after opsB (after opsA V0)))))))) (Proc.devRef .tc main_arg1) = (V0 (Proc.devRef .tc main_arg1)) := (keepsE4 (after opsE3 (after opsE2 (after opsE1 (after opsD (after opsC (after opsB (after opsA V0))))))) (r := main_arg1) (by decide)).trans s7_arg1
  have s8_arg2 : (after opsE4 (after opsE3 (after opsE2 (after opsE1 (after opsD (after opsC (after opsB (after opsA V0)))))))) (Proc.devRef .tc main_arg2) = (V0 (Proc.devRef .tc main_arg2)) := (keepsE4 (after opsE3 (after opsE2 (after opsE1 (after opsD (after opsC (after opsB (after opsA V0))))))) (r := main_arg2) (by decide)).trans s7_arg2
  have s8_v141 : (after opsE4 (after opsE3 (after opsE2 (after opsE1 (after opsD (after opsC (after opsB (after opsA V0)))))))) (Proc.devRef .tc main_v141) = (concatenate S64x100000x23 2 [⟨S64x100000x20, (concatenate S64x100000x20 2 [⟨S64x100000x16, (concatenate S64x100000x16 2 [⟨S64x100000x1, (lay (ones (F := F)))⟩, ⟨S64x100000x1, (lay (ch0 (V0 (Proc.devRef .tc main_arg0))))⟩, ⟨S64x100000x1, (lay (ch1 (V0 (Proc.devRef .tc main_arg0))))⟩, ⟨S64x100000x1, (lay (ch2 (V0 (Proc.devRef .tc main_arg0))))⟩, ⟨S64x100000x1, (lay (mulf (ch0 (V0 (Proc.devRef .tc main_arg0))) (ch0 (V0 (Proc.devRef .tc main_arg0)))))⟩, ⟨S64x100000x1, (lay (mulf (ch0 (V0 (Proc.devRef .tc main_arg0))) (ch1 (V0 (Proc.devRef .tc main_arg0)))))⟩, ⟨S64x100000x1, (lay (mulf (ch0 (V0 (Proc.devRef .tc main_arg0))) (ch2 (V0 (Proc.devRef .tc main_arg0)))))⟩, ⟨S64x100000x1, (lay (mulf (ch1 (V0 (Proc.devRef .tc main_arg0))) (ch1 (V0 (Proc.devRef .tc main_arg0)))))⟩, ⟨S64x100000x1, (lay (mulf (ch1 (V0 (Proc.devRef .tc main_arg0))) (ch2 (V0 (Proc.devRef .tc main_arg0)))))⟩, ⟨S64x100000x1, (lay (mulf (ch2 (V0 (Proc.devRef .tc main_arg0))) (ch2 (V0 (Proc.devRef .tc main_arg0)))))⟩, ⟨S64x100000x1, (lay (mulf (mulf (ch0 (V0 (Proc.devRef .tc main_arg0))) (ch0 (V0 (Proc.devRef .tc main_arg0)))) (ch0 (V0 (Proc.devRef .tc main_arg0)))))⟩, ⟨S64x100000x1, (lay (mulf (mulf (ch0 (V0 (Proc.devRef .tc main_arg0))) (ch0 (V0 (Proc.devRef .tc main_arg0)))) (ch1 (V0 (Proc.devRef .tc main_arg0)))))⟩, ⟨S64x100000x1, (lay (mulf (mulf (ch0 (V0 (Proc.devRef .tc main_arg0))) (ch0 (V0 (Proc.devRef .tc main_arg0)))) (ch2 (V0 (Proc.devRef .tc main_arg0)))))⟩, ⟨S64x100000x1, (lay (mulf (mulf (ch0 (V0 (Proc.devRef .tc main_arg0))) (ch1 (V0 (Proc.devRef .tc main_arg0)))) (ch1 (V0 (Proc.devRef .tc main_arg0)))))⟩, ⟨S64x100000x1, (lay (mulf (mulf (ch0 (V0 (Proc.devRef .tc main_arg0))) (ch1 (V0 (Proc.devRef .tc main_arg0)))) (ch2 (V0 (Proc.devRef .tc main_arg0)))))⟩, ⟨S64x100000x1, (lay (mulf (mulf (ch0 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2)⟩, ⟨S64x100000x4, (concatenate S64x100000x4 2 [⟨S64x100000x1, (lay (mulf (mulf (ch1 (V0 (Proc.devRef .tc main_arg0))) (ch1 (V0 (Proc.devRef .tc main_arg0)))) (ch1 (V0 (Proc.devRef .tc main_arg0)))))⟩, ⟨S64x100000x1, (lay (mulf (mulf (ch1 (V0 (Proc.devRef .tc main_arg0))) (ch1 (V0 (Proc.devRef .tc main_arg0)))) (ch2 (V0 (Proc.devRef .tc main_arg0)))))⟩, ⟨S64x100000x1, (lay (mulf (mulf (ch1 (V0 (Proc.devRef .tc main_arg0))) (ch2 (V0 (Proc.devRef .tc main_arg0)))) (ch2 (V0 (Proc.devRef .tc main_arg0)))))⟩, ⟨S64x100000x1, (lay (mulf (mulf (ch2 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x4_d2)⟩] concatenates_S64x100000x16_S64x100000x4_S64x100000x20_d2)⟩, ⟨S64x100000x3, (Host.sin (V0 (Proc.devRef .tc main_arg0)))⟩] concatenates_S64x100000x20_S64x100000x3_S64x100000x23_d2) := by rw [(readE4 (after opsE3 (after opsE2 (after opsE1 (after opsD (after opsC (after opsB (after opsA V0)))))))), s7_v139, s7_v140]
  have s9_v143 : (after opsE5 (after opsE4 (after opsE3 (after opsE2 (after opsE1 (after opsD (after opsC (after opsB (after opsA V0))))))))) (Proc.devRef .tc main_v143) = (Host.dotGeneral dot_S64x100000x23_S23x3_S64x100000x3_2_0_01_1_n_n none (concatenate S64x100000x23 2 [⟨S64x100000x20, (concatenate S64x100000x20 2 [⟨S64x100000x16, (concatenate S64x100000x16 2 [⟨S64x100000x1, (lay (ones (F := F)))⟩, ⟨S64x100000x1, (lay (ch0 (V0 (Proc.devRef .tc main_arg0))))⟩, ⟨S64x100000x1, (lay (ch1 (V0 (Proc.devRef .tc main_arg0))))⟩, ⟨S64x100000x1, (lay (ch2 (V0 (Proc.devRef .tc main_arg0))))⟩, ⟨S64x100000x1, (lay (mulf (ch0 (V0 (Proc.devRef .tc main_arg0))) (ch0 (V0 (Proc.devRef .tc main_arg0)))))⟩, ⟨S64x100000x1, (lay (mulf (ch0 (V0 (Proc.devRef .tc main_arg0))) (ch1 (V0 (Proc.devRef .tc main_arg0)))))⟩, ⟨S64x100000x1, (lay (mulf (ch0 (V0 (Proc.devRef .tc main_arg0))) (ch2 (V0 (Proc.devRef .tc main_arg0)))))⟩, ⟨S64x100000x1, (lay (mulf (ch1 (V0 (Proc.devRef .tc main_arg0))) (ch1 (V0 (Proc.devRef .tc main_arg0)))))⟩, ⟨S64x100000x1, (lay (mulf (ch1 (V0 (Proc.devRef .tc main_arg0))) (ch2 (V0 (Proc.devRef .tc main_arg0)))))⟩, ⟨S64x100000x1, (lay (mulf (ch2 (V0 (Proc.devRef .tc main_arg0))) (ch2 (V0 (Proc.devRef .tc main_arg0)))))⟩, ⟨S64x100000x1, (lay (mulf (mulf (ch0 (V0 (Proc.devRef .tc main_arg0))) (ch0 (V0 (Proc.devRef .tc main_arg0)))) (ch0 (V0 (Proc.devRef .tc main_arg0)))))⟩, ⟨S64x100000x1, (lay (mulf (mulf (ch0 (V0 (Proc.devRef .tc main_arg0))) (ch0 (V0 (Proc.devRef .tc main_arg0)))) (ch1 (V0 (Proc.devRef .tc main_arg0)))))⟩, ⟨S64x100000x1, (lay (mulf (mulf (ch0 (V0 (Proc.devRef .tc main_arg0))) (ch0 (V0 (Proc.devRef .tc main_arg0)))) (ch2 (V0 (Proc.devRef .tc main_arg0)))))⟩, ⟨S64x100000x1, (lay (mulf (mulf (ch0 (V0 (Proc.devRef .tc main_arg0))) (ch1 (V0 (Proc.devRef .tc main_arg0)))) (ch1 (V0 (Proc.devRef .tc main_arg0)))))⟩, ⟨S64x100000x1, (lay (mulf (mulf (ch0 (V0 (Proc.devRef .tc main_arg0))) (ch1 (V0 (Proc.devRef .tc main_arg0)))) (ch2 (V0 (Proc.devRef .tc main_arg0)))))⟩, ⟨S64x100000x1, (lay (mulf (mulf (ch0 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x1_S64x100000x16_d2)⟩, ⟨S64x100000x4, (concatenate S64x100000x4 2 [⟨S64x100000x1, (lay (mulf (mulf (ch1 (V0 (Proc.devRef .tc main_arg0))) (ch1 (V0 (Proc.devRef .tc main_arg0)))) (ch1 (V0 (Proc.devRef .tc main_arg0)))))⟩, ⟨S64x100000x1, (lay (mulf (mulf (ch1 (V0 (Proc.devRef .tc main_arg0))) (ch1 (V0 (Proc.devRef .tc main_arg0)))) (ch2 (V0 (Proc.devRef .tc main_arg0)))))⟩, ⟨S64x100000x1, (lay (mulf (mulf (ch1 (V0 (Proc.devRef .tc main_arg0))) (ch2 (V0 (Proc.devRef .tc main_arg0)))) (ch2 (V0 (Proc.devRef .tc main_arg0)))))⟩, ⟨S64x100000x1, (lay (mulf (mulf (ch2 (V0 (Proc.devRef .tc main_arg0))) (ch2 (V0 (Proc.devRef .tc main_arg0)))) (ch2 (V0 (Proc.devRef .tc main_arg0)))))⟩] concatenates_S64x100000x1_S64x100000x1_S64x100000x1_S64x100000x1_S64x100000x4_d2)⟩] concatenates_S64x100000x16_S64x100000x4_S64x100000x20_d2)⟩, ⟨S64x100000x3, (Host.sin (V0 (Proc.devRef .tc main_arg0)))⟩] concatenates_S64x100000x20_S64x100000x3_S64x100000x23_d2) (mulf (V0 (Proc.devRef .tc main_arg2)) (V0 (Proc.devRef .tc main_arg1)))) := by rw [(readE5 (after opsE4 (after opsE3 (after opsE2 (after opsE1 (after opsD (after opsC (after opsB (after opsA V0))))))))), s8_v141, s8_arg2, s8_arg1]
  exact s9_v143.trans rfl

/-- On every device, from any memory with zero counters: every weakly fair execution of @main terminates with the
    result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v143).trans (result_read _),
      (h c main_arg0).trans (arg_kept _ (by decide) (by decide) (by decide) (by decide) (by decide) (by decide) (by decide) (by decide) (by decide)),
      (h c main_arg1).trans (arg_kept _ (by decide) (by decide) (by decide) (by decide) (by decide) (by decide) (by decide) (by decide) (by decide)),
      (h c main_arg2).trans (arg_kept _ (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.LibLastAxis.lean ====
/-
  Rank-3 arrays read along their LAST axis, index by index, over any element type and any extents A x B x C.

  * `column_apply`: the slice of an A x B x C array at one last-axis coordinate `o`, flattened to A x B, read at (p, q)
    is the array at (p, q, o).
  * `lay_last_apply`: an A x B array laid out as A x B x 1, read at (p, q, r), is the array at (p, q).
  * `splat_apply`: a scalar broadcast to A x B is the scalar at every index.
  * `cat_last_apply`: a concatenation of any number of A x B x Cₖ pieces along the last axis, read at (p, q, r'), is
    piece k at (p, q, r) whenever r' is r past the total extent `pre` of the pieces before piece k.
-/
import Idealize.ShloMosaic.Lib.Pipeline.Value
import Idealize.ShloMosaic.Lib.ValueIdx

noncomputable section

namespace Cert.LibLastAxis

open Idealize.ShloMosaic Idealize.ShloMosaic.ValueIdx

variable {α : Type}

/-- One last-axis coordinate of an A x B x C array, as an A x B array, read at (p, q). -/
theorem column_apply {A B C : Nat} (o : Nat) (x : (⟨3, ![A, B, C]⟩ : Shape).Idx → α)
    (hs : (⟨3, ![A, B, C]⟩ : Shape).Slices ![0, 0, o] ⟨3, ![A, B, 1]⟩)
    (hc : (⟨3, ![A, B, 1]⟩ : Shape).ShapeCasts ⟨2, ![A, B]⟩) (p : Fin A) (q : Fin B) (r : Fin C) (hr : r.val = o) :
    shapeCast ⟨2, ![A, B]⟩ (extractStridedSlice ⟨3, ![A, B, 1]⟩ ![0, 0, o] x hs) hc (ix2 p q) = x (ix3 p q r) := by
  refine (shapeCast_apply _ hc (ix2 p q) (ix3 p q (0 : Fin 1)) ?_).trans ?_
  · rw [Shape.rowMajor_val_three, Shape.rowMajor_val_two]
    show (p.val * B + q.val) * 1 + 0 = p.val * B + q.val
    rw [Nat.mul_one, Nat.add_zero]
  · refine extractStridedSlice_apply ![0, 0, o] x hs (ix3 p q (0 : Fin 1)) (ix3 p q r) (fun a => ?_)
    match a with
    | ⟨0, _⟩ => show p.val = 0 + p.val; omega
    | ⟨1, _⟩ => show q.val = 0 + q.val; omega
    | ⟨2, _⟩ => show r.val = o + 0; omega

/-- An A x B array laid out as A x B x 1, read at (p, q, r). -/
theorem lay_last_apply {A B : Nat} (y : (⟨2, ![A, B]⟩ : Shape).Idx → α)
    (h : (⟨2, ![A, B]⟩ : Shape).BroadcastsInDim ⟨3, ![A, B, 1]⟩ ![0, 1]) (p : Fin A) (q : Fin B) (r : Fin 1) :
    broadcastInDim ⟨3, ![A, B, 1]⟩ ![0, 1] h y (ix3 p q r) = y (ix2 p q) := by
  refine broadcastInDim_apply _ h y (ix3 p q r) (ix2 p q) (fun a => ?_)
  match a with
  | ⟨0, _⟩ =>
    show p.val = if A = 1 then 0 else p.val
    by_cases hA : A = 1
    · rw [if_pos hA]; have := p.isLt; omega
    · rw [if_neg hA]
  | ⟨1, _⟩ =>
    show q.val = if B = 1 then 0 else q.val
    by_cases hB : B = 1
    · rw [if_pos hB]; have := q.isLt; omega
    · rw [if_neg hB]

/-- A scalar broadcast to A x B, read at any index. -/
theorem splat_apply {A B : Nat} (y : (⟨0, ![]⟩ : Shape).Idx → α)
    (h : (⟨0, ![]⟩ : Shape).BroadcastsInDim ⟨2, ![A, B]⟩ ![]) (j : (⟨2, ![A, B]⟩ : Shape).Idx) :
    broadcastInDim ⟨2, ![A, B]⟩ ![] h y j = y ix0 :=
  broadcastInDim_apply _ h y j ix0 (fun a => a.elim0)

/-- A concatenation along the last axis read at (p, q, r'): piece `k`, whose span starts at `pre`, at (p, q, r). -/
theorem cat_last_apply {A B C : Nat} (xs : List ((s : Shape) × (s.Idx → α)))
    (h : Shape.Concatenates (xs.map (·.1)) ⟨3, ![A, B, C]⟩ 2)
    (k : Nat) (hk : k < xs.length) (C₁ : Nat) (x₁ : (⟨3, ![A, B, C₁]⟩ : Shape).Idx → α)
    (hxk : xs[k] = ⟨⟨3, ![A, B, C₁]⟩, x₁⟩) (pre : Nat)
    (hpre : (((xs.take k).map (·.1)).map fun s =>
      if h : s.rank = (⟨3, ![A, B, C]⟩ : Shape).rank then s.size ((2 : Fin (⟨3, ![A, B, C]⟩ : Shape).rank).cast h.symm) else 0).sum = pre)
    (p : Fin A) (q : Fin B) (r : Fin C₁) (r' : Fin C) (hr : pre + r.val = r'.val) :
    concatenate ⟨3, ![A, B, C]⟩ 2 xs h (ix3 p q r') = x₁ (ix3 p q r) := by
  refine concatenate_apply_piece 2 xs h (ix3 p q r') k hk ⟨3, ![A, B, C₁]⟩ x₁ hxk rfl pre hpre (ix3 p q r)
    (fun b hb => ?_) hr
  match b, hb with
  | ⟨0, _⟩, _ => rfl
  | ⟨1, _⟩, _ => rfl
  | ⟨2, _⟩, hb => exact absurd rfl hb

end Cert.LibLastAxis

end
-- ==== Proof.RefValue.lean ====
/-
  The reference's composed term, index by index, is the specification.

  Read at (batch b, row n, entry k), the library array is entry k of the library of the sample x (b, n, ·): entries
  0 … 15 and 16 … 19 are the two groups of monomial columns — each the constant one, a channel column, or a product of
  two or three channel columns taken from the left, laid on a unit last axis —, entries 20 … 22 the sines of the three
  channels. The host's contraction of that axis against mask times weights is, at the ideal instance, the plain sum over
  the 23 entries: the specification's sum.
-/
import proofs.«158647_j8753143349705_2_alg».proof.Proof.RefTerm
import proofs.«158647_j8753143349705_2_alg».proof.Proof.Spec
import proofs.«158647_j8753143349705_2_alg».proof.Proof.LibLastAxis
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.HandRun
open Idealize.ShloMosaic Idealize.ShloMosaic.ValueIdx Cert.LibLastAxis Cert.Sindy

variable (x : (⟨S64x100000x3, .f32⟩ : BufTy).Contents (Elt Ideal)) (b : Fin 64) (n : Fin 100000)

/-! ## One channel of the input as a flat column -/

theorem col0 : ch0 (F := Ideal) x (ix2 b n) = x (ix3 b n (0 : Fin 3)) := column_apply 0 x _ _ b n 0 rfl
theorem col1 : ch1 (F := Ideal) x (ix2 b n) = x (ix3 b n (1 : Fin 3)) := column_apply 1 x _ _ b n 1 rfl
theorem col2 : ch2 (F := Ideal) x (ix2 b n) = x (ix3 b n (2 : Fin 3)) := column_apply 2 x _ _ b n 2 rfl

/-! ## Each monomial column of its group -/

theorem entry0 : mono16 (F := Ideal) x (ix3 b n (0 : Fin 16)) = 1 := by
  unfold mono16
  exact (cat_last_apply _ _ 0 (by show 0 < 16; decide) 1 (lay (ones (F := Ideal))) rfl 0 rfl b n 0 0 rfl).trans ((lay_last_apply (ones (F := Ideal)) _ b n 0).trans ((splat_apply _ _ _).trans Ideal.ofBits_one_f32))

theorem entry1 : mono16 (F := Ideal) x (ix3 b n (1 : Fin 16)) = x (ix3 b n (0 : Fin 3)) := by
  unfold mono16
  exact (cat_last_apply _ _ 1 (by show 1 < 16; decide) 1 (lay (ch0 x)) rfl 1 rfl b n 0 1 rfl).trans ((lay_last_apply (ch0 x) _ b n 0).trans (col0 x b n))

theorem entry2 : mono16 (F := Ideal) x (ix3 b n (2 : Fin 16)) = x (ix3 b n (1 : Fin 3)) := by
  unfold mono16
  exact (cat_last_apply _ _ 2 (by show 2 < 16; decide) 1 (lay (ch1 x)) rfl 2 rfl b n 0 2 rfl).trans ((lay_last_apply (ch1 x) _ b n 0).trans (col1 x b n))

theorem entry3 : mono16 (F := Ideal) x (ix3 b n (3 : Fin 16)) = x (ix3 b n (2 : Fin 3)) := by
  unfold mono16
  exact (cat_last_apply _ _ 3 (by show 3 < 16; decide) 1 (lay (ch2 x)) rfl 3 rfl b n 0 3 rfl).trans ((lay_last_apply (ch2 x) _ b n 0).trans (col2 x b n))

theorem entry4 : mono16 (F := Ideal) x (ix3 b n (4 : Fin 16)) = x (ix3 b n (0 : Fin 3)) * x (ix3 b n (0 : Fin 3)) := by
  unfold mono16
  exact (cat_last_apply _ _ 4 (by show 4 < 16; decide) 1 (lay (mulf (ch0 x) (ch0 x))) rfl 4 rfl b n 0 4 rfl).trans ((lay_last_apply (mulf (ch0 x) (ch0 x)) _ b n 0).trans (congrArg₂ (· * ·) (col0 x b n) (col0 x b n)))

theorem entry5 : mono16 (F := Ideal) x (ix3 b n (5 : Fin 16)) = x (ix3 b n (0 : Fin 3)) * x (ix3 b n (1 : Fin 3)) := by
  unfold mono16
  exact (cat_last_apply _ _ 5 (by show 5 < 16; decide) 1 (lay (mulf (ch0 x) (ch1 x))) rfl 5 rfl b n 0 5 rfl).trans ((lay_last_apply (mulf (ch0 x) (ch1 x)) _ b n 0).trans (congrArg₂ (· * ·) (col0 x b n) (col1 x b n)))

theorem entry6 : mono16 (F := Ideal) x (ix3 b n (6 : Fin 16)) = x (ix3 b n (0 : Fin 3)) * x (ix3 b n (2 : Fin 3)) := by
  unfold mono16
  exact (cat_last_apply _ _ 6 (by show 6 < 16; decide) 1 (lay (mulf (ch0 x) (ch2 x))) rfl 6 rfl b n 0 6 rfl).trans ((lay_last_apply (mulf (ch0 x) (ch2 x)) _ b n 0).trans (congrArg₂ (· * ·) (col0 x b n) (col2 x b n)))

theorem entry7 : mono16 (F := Ideal) x (ix3 b n (7 : Fin 16)) = x (ix3 b n (1 : Fin 3)) * x (ix3 b n (1 : Fin 3)) := by
  unfold mono16
  exact (cat_last_apply _ _ 7 (by show 7 < 16; decide) 1 (lay (mulf (ch1 x) (ch1 x))) rfl 7 rfl b n 0 7 rfl).trans ((lay_last_apply (mulf (ch1 x) (ch1 x)) _ b n 0).trans (congrArg₂ (· * ·) (col1 x b n) (col1 x b n)))

set_option maxHeartbeats 4000000 in
theorem entry8 : mono16 (F := Ideal) x (ix3 b n (8 : Fin 16)) = x (ix3 b n (1 : Fin 3)) * x (ix3 b n (2 : Fin 3)) := by
  unfold mono16
  exact (cat_last_apply _ _ 8 (by show 8 < 16; decide) 1 (lay (mulf (ch1 x) (ch2 x))) rfl 8 rfl b n 0 8 rfl).trans ((lay_last_apply (mulf (ch1 x) (ch2 x)) _ b n 0).trans (congrArg₂ (· * ·) (col1 x b n) (col2 x b n)))

set_option maxHeartbeats 4000000 in
theorem entry9 : mono16 (F := Ideal) x (ix3 b n (9 : Fin 16)) = x (ix3 b n (2 : Fin 3)) * x (ix3 b n (2 : Fin 3)) := by
  unfold mono16
  exact (cat_last_apply _ _ 9 (by show 9 < 16; decide) 1 (lay (mulf (ch2 x) (ch2 x))) rfl 9 rfl b n 0 9 rfl).trans ((lay_last_apply (mulf (ch2 x) (ch2 x)) _ b n 0).trans (congrArg₂ (· * ·) (col2 x b n) (col2 x b n)))

set_option maxHeartbeats 4000000 in
theorem entry10 : mono16 (F := Ideal) x (ix3 b n (10 : Fin 16)) = x (ix3 b n (0 : Fin 3)) * x (ix3 b n (0 : Fin 3)) * x (ix3 b n (0 : Fin 3)) := by
  unfold mono16
  exact (cat_last_apply _ _ 10 (by show 10 < 16; decide) 1 (lay (mulf (mulf (ch0 x) (ch0 x)) (ch0 x))) rfl 10 rfl b n 0 10 rfl).trans ((lay_last_apply (mulf (mulf (ch0 x) (ch0 x)) (ch0 x)) _ b n 0).trans (congrArg₂ (· * ·) (congrArg₂ (· * ·) (col0 x b n) (col0 x b n)) (col0 x b n)))

set_option maxHeartbeats 4000000 in
theorem entry11 : mono16 (F := Ideal) x (ix3 b n (11 : Fin 16)) = x (ix3 b n (0 : Fin 3)) * x (ix3 b n (0 : Fin 3)) * x (ix3 b n (1 : Fin 3)) := by
  unfold mono16
  exact (cat_last_apply _ _ 11 (by show 11 < 16; decide) 1 (lay (mulf (mulf (ch0 x) (ch0 x)) (ch1 x))) rfl 11 rfl b n 0 11 rfl).trans ((lay_last_apply (mulf (mulf (ch0 x) (ch0 x)) (ch1 x)) _ b n 0).trans (congrArg₂ (· * ·) (congrArg₂ (· * ·) (col0 x b n) (col0 x b n)) (col1 x b n)))

set_option maxHeartbeats 4000000 in
theorem entry12 : mono16 (F := Ideal) x (ix3 b n (12 : Fin 16)) = x (ix3 b n (0 : Fin 3)) * x (ix3 b n (0 : Fin 3)) * x (ix3 b n (2 : Fin 3)) := by
  unfold mono16
  exact (cat_last_apply _ _ 12 (by show 12 < 16; decide) 1 (lay (mulf (mulf (ch0 x) (ch0 x)) (ch2 x))) rfl 12 rfl b n 0 12 rfl).trans ((lay_last_apply (mulf (mulf (ch0 x) (ch0 x)) (ch2 x)) _ b n 0).trans (congrArg₂ (· * ·) (congrArg₂ (· * ·) (col0 x b n) (col0 x b n)) (col2 x b n)))

set_option maxHeartbeats 4000000 in
theorem entry13 : mono16 (F := Ideal) x (ix3 b n (13 : Fin 16)) = x (ix3 b n (0 : Fin 3)) * x (ix3 b n (1 : Fin 3)) * x (ix3 b n (1 : Fin 3)) := by
  unfold mono16
  exact (cat_last_apply _ _ 13 (by show 13 < 16; decide) 1 (lay (mulf (mulf (ch0 x) (ch1 x)) (ch1 x))) rfl 13 rfl b n 0 13 rfl).trans ((lay_last_apply (mulf (mulf (ch0 x) (ch1 x)) (ch1 x)) _ b n 0).trans (congrArg₂ (· * ·) (congrArg₂ (· * ·) (col0 x b n) (col1 x b n)) (col1 x b n)))

set_option maxHeartbeats 4000000 in
theorem entry14 : mono16 (F := Ideal) x (ix3 b n (14 : Fin 16)) = x (ix3 b n (0 : Fin 3)) * x (ix3 b n (1 : Fin 3)) * x (ix3 b n (2 : Fin 3)) := by
  unfold mono16
  exact (cat_last_apply _ _ 14 (by show 14 < 16; decide) 1 (lay (mulf (mulf (ch0 x) (ch1 x)) (ch2 x))) rfl 14 rfl b n 0 14 rfl).trans ((lay_last_apply (mulf (mulf (ch0 x) (ch1 x)) (ch2 x)) _ b n 0).trans (congrArg₂ (· * ·) (congrArg₂ (· * ·) (col0 x b n) (col1 x b n)) (col2 x b n)))

set_option maxHeartbeats 4000000 in
theorem entry15 : mono16 (F := Ideal) x (ix3 b n (15 : Fin 16)) = x (ix3 b n (0 : Fin 3)) * x (ix3 b n (2 : Fin 3)) * x (ix3 b n (2 : Fin 3)) := by
  unfold mono16
  exact (cat_last_apply _ _ 15 (by show 15 < 16; decide) 1 (lay (mulf (mulf (ch0 x) (ch2 x)) (ch2 x))) rfl 15 rfl b n 0 15 rfl).trans ((lay_last_apply (mulf (mulf (ch0 x) (ch2 x)) (ch2 x)) _ b n 0).trans (congrArg₂ (· * ·) (congrArg₂ (· * ·) (col0 x b n) (col2 x b n)) (col2 x b n)))

set_option maxHeartbeats 4000000 in
theorem entry16 : mono4 (F := Ideal) x (ix3 b n (0 : Fin 4)) = x (ix3 b n (1 : Fin 3)) * x (ix3 b n (1 : Fin 3)) * x (ix3 b n (1 : Fin 3)) := by
  unfold mono4
  exact (cat_last_apply _ _ 0 (by show 0 < 4; decide) 1 (lay (mulf (mulf (ch1 x) (ch1 x)) (ch1 x))) rfl 0 rfl b n 0 0 rfl).trans ((lay_last_apply (mulf (mulf (ch1 x) (ch1 x)) (ch1 x)) _ b n 0).trans (congrArg₂ (· * ·) (congrArg₂ (· * ·) (col1 x b n) (col1 x b n)) (col1 x b n)))

set_option maxHeartbeats 4000000 in
theorem entry17 : mono4 (F := Ideal) x (ix3 b n (1 : Fin 4)) = x (ix3 b n (1 : Fin 3)) * x (ix3 b n (1 : Fin 3)) * x (ix3 b n (2 : Fin 3)) := by
  unfold mono4
  exact (cat_last_apply _ _ 1 (by show 1 < 4; decide) 1 (lay (mulf (mulf (ch1 x) (ch1 x)) (ch2 x))) rfl 1 rfl b n 0 1 rfl).trans ((lay_last_apply (mulf (mulf (ch1 x) (ch1 x)) (ch2 x)) _ b n 0).trans (congrArg₂ (· * ·) (congrArg₂ (· * ·) (col1 x b n) (col1 x b n)) (col2 x b n)))

set_option maxHeartbeats 4000000 in
theorem entry18 : mono4 (F := Ideal) x (ix3 b n (2 : Fin 4)) = x (ix3 b n (1 : Fin 3)) * x (ix3 b n (2 : Fin 3)) * x (ix3 b n (2 : Fin 3)) := by
  unfold mono4
  exact (cat_last_apply _ _ 2 (by show 2 < 4; decide) 1 (lay (mulf (mulf (ch1 x) (ch2 x)) (ch2 x))) rfl 2 rfl b n 0 2 rfl).trans ((lay_last_apply (mulf (mulf (ch1 x) (ch2 x)) (ch2 x)) _ b n 0).trans (congrArg₂ (· * ·) (congrArg₂ (· * ·) (col1 x b n) (col2 x b n)) (col2 x b n)))

set_option maxHeartbeats 4000000 in
theorem entry19 : mono4 (F := Ideal) x (ix3 b n (3 : Fin 4)) = x (ix3 b n (2 : Fin 3)) * x (ix3 b n (2 : Fin 3)) * x (ix3 b n (2 : Fin 3)) := by
  unfold mono4
  exact (cat_last_apply _ _ 3 (by show 3 < 4; decide) 1 (lay (mulf (mulf (ch2 x) (ch2 x)) (ch2 x))) rfl 3 rfl b n 0 3 rfl).trans ((lay_last_apply (mulf (mulf (ch2 x) (ch2 x)) (ch2 x)) _ b n 0).trans (congrArg₂ (· * ·) (congrArg₂ (· * ·) (col2 x b n) (col2 x b n)) (col2 x b n)))

/-! ## The library array through its levels of joining -/

/-- Entries 0 … 19 of the library array are the joined monomial groups'. -/
theorem theta_lo (k : Fin 20) :
    theta (F := Ideal) x (ix3 b n (⟨k.val, by omega⟩ : Fin 23))
      = concatenate S64x100000x20 2 [⟨S64x100000x16, mono16 (F := Ideal) x⟩, ⟨S64x100000x4, mono4 (F := Ideal) x⟩]
          concatenates_S64x100000x16_S64x100000x4_S64x100000x20_d2 (ix3 b n k) := by
  unfold theta
  exact cat_last_apply _ _ 0 (by show 0 < 2; decide) 20 _ rfl 0 rfl b n k _ (Nat.zero_add _)

/-- Entries 20, 21, 22 of the library array are the sines of the three channels. -/
theorem theta_hi (o : Fin 3) :
    theta (F := Ideal) x (ix3 b n (⟨20 + o.val, by omega⟩ : Fin 23)) = Host.sin (F := Ideal) (φ := .f32) x (ix3 b n o) := by
  unfold theta
  exact cat_last_apply _ _ 1 (by show 1 < 2; decide) 3 (Host.sin (F := Ideal) (φ := .f32) x) rfl 20 rfl b n o _ rfl

/-- Monomials 0 … 15 are the first group's. -/
theorem group_lo (k : Fin 16) :
    concatenate S64x100000x20 2 [⟨S64x100000x16, mono16 (F := Ideal) x⟩, ⟨S64x100000x4, mono4 (F := Ideal) x⟩]
        concatenates_S64x100000x16_S64x100000x4_S64x100000x20_d2 (ix3 b n (⟨k.val, by omega⟩ : Fin 20))
      = mono16 (F := Ideal) x (ix3 b n k) :=
  cat_last_apply _ _ 0 (by show 0 < 2; decide) 16 (mono16 (F := Ideal) x) rfl 0 rfl b n k _ (Nat.zero_add _)

/-- Monomials 16 … 19 are the second group's. -/
theorem group_hi (k : Fin 4) :
    concatenate S64x100000x20 2 [⟨S64x100000x16, mono16 (F := Ideal) x⟩, ⟨S64x100000x4, mono4 (F := Ideal) x⟩]
        concatenates_S64x100000x16_S64x100000x4_S64x100000x20_d2 (ix3 b n (⟨16 + k.val, by omega⟩ : Fin 20))
      = mono4 (F := Ideal) x (ix3 b n k) :=
  cat_last_apply _ _ 1 (by show 1 < 2; decide) 4 (mono4 (F := Ideal) x) rfl 16 rfl b n k _ rfl

/-- The library array at (batch `b`, row `n`, entry `k`) is entry `k` of the library of the sample `x (b, n, ·)`. -/
theorem theta_apply : ∀ k : Fin 23, theta (F := Ideal) x (ix3 b n k)
    = lib (x (ix3 b n (0 : Fin 3))) (x (ix3 b n (1 : Fin 3))) (x (ix3 b n (2 : Fin 3))) k
  | ⟨0, _⟩ => (theta_lo x b n 0).trans ((group_lo x b n 0).trans (entry0 x b n))
  | ⟨1, _⟩ => (theta_lo x b n 1).trans ((group_lo x b n 1).trans (entry1 x b n))
  | ⟨2, _⟩ => (theta_lo x b n 2).trans ((group_lo x b n 2).trans (entry2 x b n))
  | ⟨3, _⟩ => (theta_lo x b n 3).trans ((group_lo x b n 3).trans (entry3 x b n))
  | ⟨4, _⟩ => (theta_lo x b n 4).trans ((group_lo x b n 4).trans (entry4 x b n))
  | ⟨5, _⟩ => (theta_lo x b n 5).trans ((group_lo x b n 5).trans (entry5 x b n))
  | ⟨6, _⟩ => (theta_lo x b n 6).trans ((group_lo x b n 6).trans (entry6 x b n))
  | ⟨7, _⟩ => (theta_lo x b n 7).trans ((group_lo x b n 7).trans (entry7 x b n))
  | ⟨8, _⟩ => (theta_lo x b n 8).trans ((group_lo x b n 8).trans (entry8 x b n))
  | ⟨9, _⟩ => (theta_lo x b n 9).trans ((group_lo x b n 9).trans (entry9 x b n))
  | ⟨10, _⟩ => (theta_lo x b n 10).trans ((group_lo x b n 10).trans (entry10 x b n))
  | ⟨11, _⟩ => (theta_lo x b n 11).trans ((group_lo x b n 11).trans (entry11 x b n))
  | ⟨12, _⟩ => (theta_lo x b n 12).trans ((group_lo x b n 12).trans (entry12 x b n))
  | ⟨13, _⟩ => (theta_lo x b n 13).trans ((group_lo x b n 13).trans (entry13 x b n))
  | ⟨14, _⟩ => (theta_lo x b n 14).trans ((group_lo x b n 14).trans (entry14 x b n))
  | ⟨15, _⟩ => (theta_lo x b n 15).trans ((group_lo x b n 15).trans (entry15 x b n))
  | ⟨16, _⟩ => (theta_lo x b n 16).trans ((group_hi x b n 0).trans (entry16 x b n))
  | ⟨17, _⟩ => (theta_lo x b n 17).trans ((group_hi x b n 1).trans (entry17 x b n))
  | ⟨18, _⟩ => (theta_lo x b n 18).trans ((group_hi x b n 2).trans (entry18 x b n))
  | ⟨19, _⟩ => (theta_lo x b n 19).trans ((group_hi x b n 3).trans (entry19 x b n))
  | ⟨20, _⟩ => (theta_hi x b n 0).trans rfl
  | ⟨21, _⟩ => (theta_hi x b n 1).trans rfl
  | ⟨22, _⟩ => (theta_hi x b n 2).trans rfl
  | ⟨k + 23, h⟩ => absurd h (by omega)

/-! ## The contraction -/

theorem lhs_0 (i : S64x100000x3.Idx) (q : dot_S64x100000x23_S23x3_S64x100000x3_2_0_01_1_n_n.contr.Idx) :
    (dot_S64x100000x23_S23x3_S64x100000x3_2_0_01_1_n_n.lhsIdx i q 0).val = (i 0).val := by
  unfold DotDims.lhsIdx
  rw [dif_neg (show ¬(0 : Fin S64x100000x23.rank) ∈ dot_S64x100000x23_S23x3_S64x100000x3_2_0_01_1_n_n.lhsBatch by decide), dif_pos (show (0 : Fin S64x100000x23.rank) ∈ dot_S64x100000x23_S23x3_S64x100000x3_2_0_01_1_n_n.lhsNonContracting by decide)]
  rfl
theorem lhs_1 (i : S64x100000x3.Idx) (q : dot_S64x100000x23_S23x3_S64x100000x3_2_0_01_1_n_n.contr.Idx) :
    (dot_S64x100000x23_S23x3_S64x100000x3_2_0_01_1_n_n.lhsIdx i q 1).val = (i 1).val := by
  unfold DotDims.lhsIdx
  rw [dif_neg (show ¬(1 : Fin S64x100000x23.rank) ∈ dot_S64x100000x23_S23x3_S64x100000x3_2_0_01_1_n_n.lhsBatch by decide), dif_pos (show (1 : Fin S64x100000x23.rank) ∈ dot_S64x100000x23_S23x3_S64x100000x3_2_0_01_1_n_n.lhsNonContracting by decide)]
  rfl
theorem lhs_2 (i : S64x100000x3.Idx) (q : dot_S64x100000x23_S23x3_S64x100000x3_2_0_01_1_n_n.contr.Idx) :
    (dot_S64x100000x23_S23x3_S64x100000x3_2_0_01_1_n_n.lhsIdx i q 2).val = (q ⟨0, by decide⟩).val :=
  dot_S64x100000x23_S23x3_S64x100000x3_2_0_01_1_n_n.lhsIdx_val_of_single rfl i q
theorem rhs_0 (i : S64x100000x3.Idx) (q : dot_S64x100000x23_S23x3_S64x100000x3_2_0_01_1_n_n.contr.Idx) :
    (dot_S64x100000x23_S23x3_S64x100000x3_2_0_01_1_n_n.rhsIdx i q 0).val = (q ⟨0, by decide⟩).val :=
  dot_S64x100000x23_S23x3_S64x100000x3_2_0_01_1_n_n.rhsIdx_val_of_single rfl i q
theorem rhs_1 (i : S64x100000x3.Idx) (q : dot_S64x100000x23_S23x3_S64x100000x3_2_0_01_1_n_n.contr.Idx) :
    (dot_S64x100000x23_S23x3_S64x100000x3_2_0_01_1_n_n.rhsIdx i q 1).val = (i 2).val := by
  unfold DotDims.rhsIdx
  rw [dif_neg (show ¬(1 : Fin S23x3.rank) ∈ dot_S64x100000x23_S23x3_S64x100000x3_2_0_01_1_n_n.rhsBatch by decide), dif_pos (show (1 : Fin S23x3.rank) ∈ dot_S64x100000x23_S23x3_S64x100000x3_2_0_01_1_n_n.rhsNonContracting by decide)]
  rfl
abbrev lidx (i : S64x100000x3.Idx) (k : Fin 23) : S64x100000x23.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx (i : S64x100000x3.Idx) (k : Fin 23) : S23x3.Idx := fun a => match a with
  | ⟨0, _⟩ => ⟨k.val, k.isLt⟩
  | ⟨1, _⟩ => ⟨(i 2).val, (i 2).isLt⟩
/-- The host's contraction of the 23-entry axis, read at an index: the sum over k of the left operand at (batch, row, k)
    times the right operand at (k, channel). At the ideal instance the host's `dot_general` is this sum. -/
theorem dot_apply (y0 : FVec Ideal S64x100000x23 .f32) (y1 : FVec Ideal S23x3 .f32) (i : S64x100000x3.Idx) :
    Host.dotGeneral (F := Ideal) dot_S64x100000x23_S23x3_S64x100000x3_2_0_01_1_n_n none y0 y1 i = ∑ k : Fin 23, y0 (lidx i k) * y1 (ridx i k) := by
  simp only [Host.dotGeneral]
  rw [Ideal.dotGeneral_apply, ← Equiv.sum_comp (ValueIdx.contrEquiv1 dot_S64x100000x23_S23x3_S64x100000x3_2_0_01_1_n_n 23 rfl rfl).symm]
  refine Finset.sum_congr rfl fun k _ => ?_
  have hk := ValueIdx.contrEquiv1_symm_val dot_S64x100000x23_S23x3_S64x100000x3_2_0_01_1_n_n 23 rfl rfl k
  have el : dot_S64x100000x23_S23x3_S64x100000x3_2_0_01_1_n_n.lhsIdx i ((ValueIdx.contrEquiv1 dot_S64x100000x23_S23x3_S64x100000x3_2_0_01_1_n_n 23 rfl rfl).symm k) = lidx i k := funext fun a => Fin.ext (by
    match a with
    | ⟨0, _⟩ => exact lhs_0 _ _
    | ⟨1, _⟩ => exact lhs_1 _ _
    | ⟨2, _⟩ => exact (lhs_2 _ _).trans hk)
  have er : dot_S64x100000x23_S23x3_S64x100000x3_2_0_01_1_n_n.rhsIdx i ((ValueIdx.contrEquiv1 dot_S64x100000x23_S23x3_S64x100000x3_2_0_01_1_n_n 23 rfl rfl).symm k) = ridx i k := funext fun a => Fin.ext (by
    match a with
    | ⟨0, _⟩ => exact (rhs_0 _ _).trans hk
    | ⟨1, _⟩ => exact rhs_1 _ _)
  rw [el, er]

/-- The reference's result is the specification's array, the coefficients being mask times weights entry by entry. -/
theorem refOut_eq (w mk : (⟨S23x3, .f32⟩ : BufTy).Contents (Elt Ideal)) :
    refOut (F := Ideal) x w mk = out x (fun j => mk j * w j) := by
  funext i
  obtain ⟨b, n, s, rfl⟩ : ∃ (b : Fin 64) (n : Fin 100000) (s : Fin 3), i = ix3 b n s := ⟨i 0, i 1, i 2, eq_ix3 i⟩
  unfold refOut
  rw [dot_apply, out_apply]
  unfold sample
  refine Finset.sum_congr rfl fun k _ => ?_
  have el : lidx (ix3 b n s) k = ix3 b n k :=
    funext fun a => by match a with | ⟨0, _⟩ => rfl | ⟨1, _⟩ => rfl | ⟨2, _⟩ => rfl
  have er : ridx (ix3 b n s) k = ix2 k s :=
    funext fun a => by match a with | ⟨0, _⟩ => rfl | ⟨1, _⟩ => rfl
  rw [el, er, theta_apply x b n k]
  rfl

end Cert.ReferenceIdeal.RefValue

end
-- ==== Proof.lean ====
/-
  The kernel and the reference compute one function on the extended reals.

  Input x has 64 batches of 100000 rows of 3 channels; W and mask are 23 x 3. For each (batch, row) the sample
  (a, b, c) = x (batch, row, ·) has a library of 23 terms — 1; a, b, c; the six products of two and the ten products of
  three channels in lexicographic order, each taken from the left; sin a, sin b, sin c — and the output at channel s is
  the sum over k of library k times (mask times W) (k, s).

  The kernel forms mask times W once, then for each block of 2000 rows starts from coefficient row 0 and adds the 22
  remaining products one after another; the reference lays the 23 library columns side by side and contracts that
  axis against mask times W. The two agree by the grouping of a finite sum and by 1 · y = y, laws that hold for every
  extended real, so the finiteness precondition is never opened; the sine is the same function on both sides. Nothing
  of the kernel is rewritten by idealization, so what it preserves is the trivial proposition.

  Each program's frame (it terminates without a fault and leaves its arguments as they were) is its generated frame or,
  for the reference, its run (read back stretch by stretch) with the result dropped.
-/
import proofs.«158647_j8753143349705_2_alg».proof.Defs
import proofs.«158647_j8753143349705_2_alg».proof.Proof.Gen.Kernel
import proofs.«158647_j8753143349705_2_alg».proof.Proof.Gen.Kernel.Skeleton
import proofs.«158647_j8753143349705_2_alg».proof.Proof.Gen.Kernel.Launch
import proofs.«158647_j8753143349705_2_alg».proof.Proof.Gen.Kernel.Points
import proofs.«158647_j8753143349705_2_alg».proof.Proof.Gen.Kernel.Frame
import proofs.«158647_j8753143349705_2_alg».proof.Proof.Gen.KernelIdeal
import proofs.«158647_j8753143349705_2_alg».proof.Proof.Gen.KernelIdeal.Skeleton
import proofs.«158647_j8753143349705_2_alg».proof.Proof.Gen.KernelIdeal.Launch
import proofs.«158647_j8753143349705_2_alg».proof.Proof.Gen.KernelIdeal.Points
import proofs.«158647_j8753143349705_2_alg».proof.Proof.Gen.KernelIdeal.Frame
import proofs.«158647_j8753143349705_2_alg».proof.Proof.Gen.ReferenceIdeal
import proofs.«158647_j8753143349705_2_alg».proof.Proof.Gen.Pre_finite_inputs
import proofs.«158647_j8753143349705_2_alg».proof.Proof.KernelValue
import proofs.«158647_j8753143349705_2_alg».proof.Proof.RefRun
import proofs.«158647_j8753143349705_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.HandRun.run (F := Ideal) m ρ)

/-- From memories agreeing on x, W and mask, both programs end with the result array at the specification of those
    arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.refOut_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
